-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x1600000 : Shape := ⟨2, ![2, 1600000]⟩
abbrev S100000 : Shape := ⟨1, ![100000]⟩
abbrev S1x64 : Shape := ⟨2, ![1, 64]⟩
abbrev S64 : Shape := ⟨1, ![64]⟩
abbrev S64x64 : Shape := ⟨2, ![64, 64]⟩
abbrev S192x64 : Shape := ⟨2, ![192, 64]⟩
abbrev S192 : Shape := ⟨1, ![192]⟩
abbrev S10x64 : Shape := ⟨2, ![10, 64]⟩
abbrev S10 : Shape := ⟨1, ![10]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S10x64 .f32) (main_arg12 : FVec F S10 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S10x64 .f32 := Host.absf main_arg11
  let main_cst_16 : FVec F S_ .f32 := constant S_ .f32 0x7F800000#32
  let main_v45 : FVec F S10x64 .f32 := broadcastInDim S10x64 ![] bcast_S_S10x64 main_cst_16
  let main_v46 : IVec S10x64 1 := cmpf .olt main_v44 main_v45
  let main_c_17 : IVec S_ 1 := constantI S_ 1 1#1
  let main_v47 : IVec S_ 1 := (fun x v => Host.reduce IntOp.andi x v reducesTo_S10x64_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S192x64 .f32) (main_arg8 : FVec F S192 .f32) (main_arg9 : FVec F S64x64 .f32) (main_arg10 : FVec F S64 .f32) (main_arg11 : FVec F S10x64 .f32) (main_arg12 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S192x64 .f32 := Host.absf main_arg7
  let main_cst_8 : FVec F S_ .f32 := constant S_ .f32 0x7F800000#32
  let main_v25 : FVec F S192x64 .f32 := broadcastInDim S192x64 ![] bcast_S_S192x64 main_cst_8
  let main_v26 : IVec S192x64 1 := cmpf .olt main_v24 main_v25
  let main_c_9 : IVec S_ 1 := constantI S_ 1 1#1
  let main_v27 : IVec S_ 1 := (fun x v => Host.reduce IntOp.andi x v reducesTo_S192x64_S_d0_1 h_S_) main_v26 main_c_9
  let main_v28 : IVec S_ 1 := andi main_v23 main_v27
  let main_v29 : FVec F S192 .f32 := Host.absf main_arg8
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x1 .f32) (main_arg1 : IVec S2x1600000 32) (main_arg2 : IVec S100000 32) (main_arg3 : FVec F S1x64 .f32) (main_arg4 : FVec F S64 .f32) (main_arg5 : FVec F S64x64 .f32) (main_arg6 : FVec F S64 .f32) (main_arg7 : FVec F S192x64 .f32) (main_arg8 : FVec F S192 .f32) (main_arg9 : FVec F S64x64 .f32) (main_arg10 : FVec F S64 .f32) (main_arg11 : FVec F S10x64 .f32) (main_arg12 : FVec F S10 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S100000x1 : Shape := ⟨2, ![100000, 1]⟩
abbrev S2x1600000 : Shape := ⟨2, ![2, 1600000]⟩
abbrev S100000 : Shape := ⟨1, ![100000]⟩
abbrev S1x64 : Shape := ⟨2, ![1, 64]⟩
abbrev S64 : Shape := ⟨1, ![64]⟩
abbrev S64x64 : Shape := ⟨2, ![64, 64]⟩
abbrev S192x64 : Shape := ⟨2, ![192, 64]⟩
abbrev S192 : Shape := ⟨1, ![192]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S10000x64 : Shape := ⟨2, ![10000, 64]⟩
abbrev S1000x64 : Shape := ⟨2, ![1000, 64]⟩
abbrev S1000 : Shape := ⟨1, ![1000]⟩
abbrev S1000x1 : Shape := ⟨2, ![1000, 1]⟩
abbrev S64x10 : Shape := ⟨2, ![64, 10]⟩
abbrev S1x10 : Shape := ⟨2, ![1, 10]⟩
abbrev S1000x10 : Shape := ⟨2, ![1000, 10]⟩

abbrev nBuf : Space → Nat
  | .hbm => 119
  | .vmem => 19
  | .smem => 0
  | _ => 0

abbrev bufTy : (tb : Table) → Fin (tcTables nBuf tb) → BufTy
  | .hbm, ⟨0, _⟩ => ⟨S100000x1, .f32⟩
  | .hbm, ⟨1, _⟩ => ⟨S2x1600000, .i32⟩
  | .hbm, ⟨2, _⟩ => ⟨S100000, .i32⟩
  | .hbm, ⟨3, _⟩ => ⟨S1x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S192x64, .f32⟩
  | .hbm, ⟨8, _⟩ => ⟨S192, .f32⟩
  | .hbm, ⟨9, _⟩ => ⟨S64x64, .f32⟩
  | .hbm, ⟨10, _⟩ => ⟨S64, .f32⟩
  | .hbm, ⟨11, _⟩ => ⟨S10x64, .f32⟩
  | .hbm, ⟨12, _⟩ => ⟨S10, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S100000x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S1600000, .f32⟩
  | .hbm, ⟨53, _⟩ => ⟨S1600000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S1600000x64, .f32⟩
  | .hbm, ⟨64, _⟩ => ⟨S1600000x64, .f32⟩
  | .hbm, ⟨65, _⟩ => ⟨S_, .f32⟩
  | .hbm, ⟨66, _⟩ => ⟨S100000x64, .f32⟩
  | .hbm, ⟨67, _⟩ => ⟨S1600000x1, .i32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S1600000x64, .f32⟩
  | .hbm, ⟨84, _⟩ => ⟨S1600000x64, .f32⟩
  | .hbm, ⟨85, _⟩ => ⟨S_, .f32⟩
  | .hbm, ⟨86, _⟩ => ⟨S100000x64, .f32⟩
  | .hbm, ⟨87, _⟩ => ⟨S1600000x1, .i32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S64x64, .f32⟩
  | .hbm, ⟨93, _⟩ => ⟨S64x64, .f32⟩
  | .hbm, ⟨94, _⟩ => ⟨S64, .f32⟩
  | .hbm, ⟨95, _⟩ => ⟨S1x64, .f32⟩
  | .hbm, ⟨96, _⟩ => ⟨S64x64, .f32⟩
  | .hbm, ⟨97, _⟩ => ⟨S1x64, .f32⟩
  | .hbm, ⟨98, _⟩ => ⟨S1x64, .f32⟩
  | .hbm, ⟨99, _⟩ => ⟨S100000x64, .f32⟩
  | .hbm, ⟨100, _⟩ => ⟨S_, .f32⟩
  | .hbm, ⟨101, _⟩ => ⟨S1000x64, .f32⟩
  | .hbm, ⟨102, _⟩ => ⟨S100000x1, .i32⟩
  | .hbm, ⟨103, _⟩ => ⟨S1000x64, .f32⟩
  | .hbm, ⟨104, _⟩ => ⟨S_, .f32⟩
  | .hbm, ⟨105, _⟩ => ⟨S100000, .f32⟩
  | .hbm, ⟨106, _⟩ => ⟨S_, .f32⟩
  | .hbm, ⟨107, _⟩ => ⟨S1000, .f32⟩
  | .hbm, ⟨108, _⟩ => ⟨S100000x1, .i32⟩
  | .hbm, ⟨109, _⟩ => ⟨S1000, .f32⟩
  | .hbm, ⟨110, _⟩ => ⟨S_, .f32⟩
  | .hbm, ⟨111, _⟩ => ⟨S1000, .f32⟩
  | .hbm, ⟨112, _⟩ => ⟨S1000, .f32⟩
  | .hbm, ⟨113, _⟩ => ⟨S1000x1, .f32⟩
  | .hbm, ⟨114, _⟩ => ⟨S1000x64, .f32⟩
  | .hbm, ⟨115, _⟩ => ⟨S1000x64, .f32⟩
  | .hbm, ⟨116, _⟩ => ⟨S64x10, .f32⟩
  | .hbm, ⟨117, _⟩ => ⟨S1x10, .f32⟩
  | .hbm, ⟨118, _⟩ => ⟨S1000x10, .f32⟩
  | .local _ .vmem, ⟨0, _⟩ => ⟨S10000x64, .f32⟩
  | .local _ .vmem, ⟨1, _⟩ => ⟨S10000x64, .f32⟩
  | .local _ .vmem, ⟨2, _⟩ => ⟨S1x64, .f32⟩
  | .local _ .vmem, ⟨3, _⟩ => ⟨S64x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S10000x64, .f32⟩
  | .local _ .vmem, ⟨14, _⟩ => ⟨S10000x64, .f32⟩
  | .local _ .vmem, ⟨15, _⟩ => ⟨S1000x64, .f32⟩
  | .local _ .vmem, ⟨16, _⟩ => ⟨S64x10, .f32⟩
  | .local _ .vmem, ⟨17, _⟩ => ⟨S1x10, .f32⟩
  | .local _ .vmem, ⟨18, _⟩ => ⟨S1000x10, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_c_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_8 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_12 : Ref sig .tc := ⟨.hbm, 104, rfl⟩
abbrev main_v77 : Ref sig .tc := ⟨.hbm, 105, rfl⟩
abbrev main_cst_13 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem1_0 : DmaSem sig := 16
abbrev cc2_sem2_0 : DmaSem sig := 17
abbrev cc2_sem3_0 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1000x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1000x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1x64_S64 : S1x64.ShapeCasts S64
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S192x64_S64x64_128_0 : S192x64.Slices ![128, 0] S64x64
  transposes_S64x64_S64x64_1_0 : S64x64.Transposes [1, 0] S64x64
  slices_S192_S64_128 : S192.Slices ![128] S64
  shapeCasts_S64x64_S64x64 : S64x64.ShapeCasts S64x64
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  transposes_S10x64_S64x10_1_0 : S10x64.Transposes [1, 0] S64x10
  shapeCasts_S10_S1x10 : S10.ShapeCasts S1x10
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1000x64.size a ≤ S1000x64.size a
  hwx2_0 : ∀ i : grid2.Coords, EltTy.bits .f32 = 32 ∨ (Rect.block (s := S1000x64) S1000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x10.size a ≤ S64x10.size a
  hwx2_1 : ∀ i : grid2.Coords, EltTy.bits .f32 = 32 ∨ (Rect.block (s := S64x10) S64x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1000x10.size a ≤ S1000x10.size a
  hwx2_3 : ∀ i : grid2.Coords, EltTy.bits .f32 = 32 ∨ (Rect.block (s := S1000x10) S1000x10.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_v48) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v65) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v72) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v70) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v71) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v85) S1000x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v86) S64x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1000x10.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1 : Shape := ⟨2, ![100000, 1]⟩
abbrev S2x1600000 : Shape := ⟨2, ![2, 1600000]⟩
abbrev S100000 : Shape := ⟨1, ![100000]⟩
abbrev S1x64 : Shape := ⟨2, ![1, 64]⟩
abbrev S64 : Shape := ⟨1, ![64]⟩
abbrev S64x64 : Shape := ⟨2, ![64, 64]⟩
abbrev S192x64 : Shape := ⟨2, ![192, 64]⟩
abbrev S192 : Shape := ⟨1, ![192]⟩
abbrev S10x64 : Shape := ⟨2, ![10, 64]⟩
abbrev S10 : Shape := ⟨1, ![10]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1000x64 : Shape := ⟨2, ![1000, 64]⟩
abbrev S1000 : Shape := ⟨1, ![1000]⟩
abbrev S1000x1 : Shape := ⟨2, ![1000, 1]⟩
abbrev S64x10 : Shape := ⟨2, ![64, 10]⟩
abbrev S1000x10 : Shape := ⟨2, ![1000, 10]⟩
abbrev S1x10 : Shape := ⟨2, ![1, 10]⟩

abbrev nBuf : Space → Nat
  | .hbm => 164
  | .vmem => 0
  | .smem => 0
  | _ => 0

abbrev hbmTy0_0 (i : Nat) : BufTy := match i % 128 with
  | 0 => ⟨S100000x1, .f32⟩
  | 1 => ⟨S2x1600000, .i32⟩
  | 2 => ⟨S100000, .i32⟩
  | 3 => ⟨S1x64, .f32⟩
  | 4 => ⟨S64, .f32⟩
  | 5 => ⟨S64x64, .f32⟩
  | 6 => ⟨S64, .f32⟩
  | 7 => ⟨S192x64, .f32⟩
  | 8 => ⟨S192, .f32⟩
  | 9 => ⟨S64x64, .f32⟩
  | 10 => ⟨S64, .f32⟩
  | 11 => ⟨S10x64, .f32⟩
  | 12 => ⟨S10, .f32⟩
  | 13 => ⟨S1x1600000, .i32⟩
  | 14 => ⟨S1600000, .i32⟩
  | 15 => ⟨S1x1600000, .i32⟩
  | 16 => ⟨S1600000, .i32⟩
  | 17 => ⟨S100000x64, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S_, .f32⟩
  | 76 => ⟨S1600000, .f32⟩
  | 77 => ⟨S_, .f32⟩
  | 78 => ⟨S100000, .f32⟩
  | 79 => ⟨S1600000x1, .i32⟩
  | 80 => ⟨S100000, .f32⟩
  | 81 => ⟨S_, .f32⟩
  | 82 => ⟨S100000, .f32⟩
  | 83 => ⟨S100000, .f32⟩
  | 84 => ⟨S100000, .f32⟩
  | 85 => ⟨S_, .i32⟩
  | 86 => ⟨S1600000, .i32⟩
  | 87 => ⟨S1600000, .i1⟩
  | 88 => ⟨S_, .i32⟩
  | 89 => ⟨S1600000, .i32⟩
  | 90 => ⟨S1600000, .i32⟩
  | 91 => ⟨S1600000, .i32⟩
  | 92 => ⟨S1600000x1, .i32⟩
  | 93 => ⟨S1600000, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000, .f32⟩
  | 103 => ⟨S1600000, .f32⟩
  | 104 => ⟨S_, .i32⟩
  | 105 => ⟨S1600000, .i32⟩
  | 106 => ⟨S1600000, .i1⟩
  | 107 => ⟨S_, .i32⟩
  | 108 => ⟨S1600000, .i32⟩
  | 109 => ⟨S1600000, .i32⟩
  | 110 => ⟨S1600000, .i32⟩
  | 111 => ⟨S1600000x1, .i32⟩
  | 112 => ⟨S1600000x64, .f32⟩
  | 113 => ⟨S1600000x1, .f32⟩
  | 114 => ⟨S1600000x64, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S100000, .f32⟩
  | 121 => ⟨S100000x1, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S100000x1, .f32⟩

abbrev hbmTy0_1 (i : Nat) : BufTy := match i % 128 with
  | 0 => ⟨S_, .f32⟩
  | 1 => ⟨S100000x64, .f32⟩
  | 2 => ⟨S100000x64, .f32⟩
  | 3 => ⟨S64x64, .f32⟩
  | 4 => ⟨S64x64, .f32⟩
  | 5 => ⟨S100000x64, .f32⟩
  | 6 => ⟨S64, .f32⟩
  | 7 => ⟨S1x64, .f32⟩
  | 8 => ⟨S100000x64, .f32⟩
  | 9 => ⟨S100000x64, .f32⟩
  | 10 => ⟨S64x64, .f32⟩
  | 11 => ⟨S100000x64, .f32⟩
  | 12 => ⟨S1x64, .f32⟩
  | 13 => ⟨S100000x64, .f32⟩
  | 14 => ⟨S100000x64, .f32⟩
  | 15 => ⟨S_, .f32⟩
  | 16 => ⟨S1000x64, .f32⟩
  | 17 => ⟨S100000x1, .i32⟩
  | 18 => ⟨S1000x64, .f32⟩
  | 19 => ⟨S_, .f32⟩
  | 20 => ⟨S100000, .f32⟩
  | 21 => ⟨S_, .f32⟩
  | 22 => ⟨S1000, .f32⟩
  | 23 => ⟨S100000x1, .i32⟩
  | 24 => ⟨S1000, .f32⟩
  | 25 => ⟨S_, .f32⟩
  | 26 => ⟨S1000, .f32⟩
  | 27 => ⟨S1000, .f32⟩
  | 28 => ⟨S1000x1, .f32⟩
  | 29 => ⟨S1000x64, .f32⟩
  | 30 => ⟨S1000x64, .f32⟩
  | 31 => ⟨S64x10, .f32⟩
  | 32 => ⟨S1000x10, .f32⟩
  | 33 => ⟨S1x10, .f32⟩
  | 34 => ⟨S1000x10, .f32⟩
  | 35 => ⟨S1000x10, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_call0_cst : Ref sig .tc := ⟨.hbm, 71, rfl⟩
abbrev main_call0_v0 : Ref sig .tc := ⟨.hbm, 72, rfl⟩
abbrev main_v48 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_15 : Ref sig .tc := ⟨.hbm, 104, rfl⟩
abbrev main_v72 : Ref sig .tc := ⟨.hbm, 105, rfl⟩
abbrev main_v73 : Ref sig .tc := ⟨.hbm, 106, rfl⟩
abbrev main_c_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_call1_cst : Ref sig .tc := ⟨.hbm, 128, rfl⟩
abbrev main_call1_v0 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_18 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_19 : Ref sig .tc := ⟨.hbm, 147, rfl⟩
abbrev main_v109 : Ref sig .tc := ⟨.hbm, 148, rfl⟩
abbrev main_cst_20 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_21 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S192x64_S64x64_128_0 : S192x64.Slices ![128, 0] S64x64
  transposes_S64x64_S64x64_1_0 : S64x64.Transposes [1, 0] S64x64
  slices_S192_S64_128 : S192.Slices ![128] S64
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  transposes_S10x64_S64x10_1_0 : S10x64.Transposes [1, 0] S64x10
  bcast_S10_S1x10_1 : S10.BroadcastsInDim S1x10 (![1] : Fin 1 → Fin S1x10.rank)
  bcast_S1x10_S1000x10_0_1 : S1x10.BroadcastsInDim S1000x10 (![0, 1] : Fin 2 → Fin S1000x10.rank)
  dot_S100000x1_S1x64_S100000x64_1_0_0_1_n_n_wf : DotDims.WF S100000x1 S1x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x10_S1000x10_1_0_0_1_n_n_wf : DotDims.WF S1000x64 S64x10 S1000x10 [1] [0] [0] [1] [] []

variable [Facts₀]

def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

class Facts : Prop extends Facts₀ where

variable [Facts]
-- ==== Proof.KernelRun.lean ====
/-
  The kernel program's run with its RESULT named: every weakly fair execution of the three pallas_calls and the host
  stretches around them terminates, nothing faulting, with the result buffer at what the last segment boundary holds
  there and every argument as launched. The boundary contents are the fold of the host stretches and the regions'
  write-backs from the launch memory; reading that fold is the business of the modules that import this one.
-/
import proofs.«145059_j90417651515758_1_alg».proof.Proof.Gen.KernelIdeal.Frame

set_option maxRecDepth 16384

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the six segments, the last thread state read against the final state at the result buffer and at
    each argument. -/
theorem run_result : θ_run defs (onTc (τ := τ) (main (F := F))) ⟨m, fun _ => 0, ρ⟩ (fun r => ∀ c : Dev nD,
      r.2.mem ((c.tc : Thread nD τ).loc main_v88) = W6 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v88 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.Gcn.Run

end
-- ==== Proof.Stages.lean ====
/-
  The stages of the two-layer graph network that both programs share, each as one function of whole arrays over the
  extended reals: the edge list's two rows, the wrap of a negative node index, the degree normalisation d^(-1/2), the
  edge weights, one convolution's aggregation (gather the source rows, scale, scatter-add into the destination rows,
  add the self-loop term) and the mean pool by graph id. They are spelt once and read in each program's own
  vocabulary of shapes and dimension records (namespaces `K` and `R`); the two readings are one function.
  The gathers and scatters are never opened: both programs apply the same ones to values shown equal.
-/
import proofs.«145059_j90417651515758_1_alg».proof.KernelIdeal
import proofs.«145059_j90417651515758_1_alg».proof.ReferenceIdeal
import Idealize.ShloMosaic.PureOps.Ideal

noncomputable section

open Idealize.ShloMosaic

namespace Cert.Gcn.K

section
open Cert.KernelIdeal Cert.KernelIdeal.Facts₀ Cert.KernelIdeal.Facts
variable [Cert.KernelIdeal.Facts]

/-- The flat vector of source nodes: row 0 of the edge list. -/
def srcOf (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The flat vector of destination nodes: row 1 of the edge list. -/
def dstOf (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- A node index per edge with a negative value wrapped by the node count, as an index column. -/
def wrapCol (v : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- d^(-1/2) per node, d = 1 + the number of edges arriving at the node. -/
def dinvOf (dst : (⟨S1600000, .i32⟩ : BufTy).Contents (Elt Ideal)) : (⟨S100000, .f32⟩ : BufTy).Contents (Elt Ideal) :=
  Host.rsqrt (F := Ideal) (addf (F := Ideal) (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32)))

/-- The flat vector of edge weights d_src^(-1/2) · d_dst^(-1/2). -/
def normOf (src dst : (⟨S1600000, .i32⟩ : BufTy).Contents (Elt Ideal)) : (⟨S1600000, .f32⟩ : BufTy).Contents (Elt Ideal) :=
  mulf (F := Ideal) (φ := .f32) (Host.gather gather_S100000_S1600000x1_S1600000_n_0_n_n_0_1_1 (dinvOf dst) (wrapCol src))
    (Host.gather gather_S100000_S1600000x1_S1600000_n_0_n_n_0_1_1 (dinvOf dst) (wrapCol dst))

/-- The aggregation of one graph convolution: every edge carries its source row, scaled by the edge weight column
    `nrm`, into its destination row; each node adds its own row scaled by the self-loop column `slf`. -/
def convWith (src dst : (⟨S1600000, .i32⟩ : BufTy).Contents (Elt Ideal))
    (nrm : (⟨S1600000x1, .f32⟩ : BufTy).Contents (Elt Ideal)) (slf : (⟨S100000x1, .f32⟩ : BufTy).Contents (Elt Ideal))
    (h : (⟨S100000x64, .f32⟩ : BufTy).Contents (Elt Ideal)) : (⟨S100000x64, .f32⟩ : BufTy).Contents (Elt Ideal) :=
  addf (F := Ideal) (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (mulf (F := Ideal) (Host.gather gather_S100000x64_S1600000x1_S1600000x64_1_0_n_n_0_1_164 h (wrapCol src))
        (broadcastInDim S1600000x64 ![0, 1] bcast_S1600000x1_S1600000x64_0_1 nrm)))
    (mulf (F := Ideal) h (broadcastInDim S100000x64 ![0, 1] bcast_S100000x1_S100000x64_0_1 slf))

/-- The edge weights as a column. -/
def normCol (ei : (⟨S2x1600000, .i32⟩ : BufTy).Contents (Elt Ideal)) : (⟨S1600000x1, .f32⟩ : BufTy).Contents (Elt Ideal) :=
  broadcastInDim S1600000x1 ![0] bcast_S1600000_S1600000x1_0 (normOf (srcOf ei) (dstOf ei))

/-- The self-loop coefficients d^(-1) as a column. -/
def selfCol (ei : (⟨S2x1600000, .i32⟩ : BufTy).Contents (Elt Ideal)) : (⟨S100000x1, .f32⟩ : BufTy).Contents (Elt Ideal) :=
  broadcastInDim S100000x1 ![0] bcast_S100000_S100000x1_0 (mulf (F := Ideal) (φ := .f32) (dinvOf (dstOf ei)) (dinvOf (dstOf ei)))

/-- One graph convolution's aggregation of the rows `h` over the edge list `ei`. -/
def conv (ei : (⟨S2x1600000, .i32⟩ : BufTy).Contents (Elt Ideal)) (h : (⟨S100000x64, .f32⟩ : BufTy).Contents (Elt Ideal)) :
    (⟨S100000x64, .f32⟩ : BufTy).Contents (Elt Ideal) :=
  convWith (srcOf ei) (dstOf ei) (normCol ei) (selfCol ei) h

/-- The mean of the node rows of each graph: the rows summed by graph id, over the graph's node count (at least 1). -/
def poolOf (batch : (⟨S100000, .i32⟩ : BufTy).Contents (Elt Ideal)) (h : (⟨S100000x64, .f32⟩ : BufTy).Contents (Elt Ideal)) :
    (⟨S1000x64, .f32⟩ : BufTy).Contents (Elt Ideal) :=
  Host.divf (F := Ideal) (Host.scatterAdd (F := Ideal) scatter_S1000x64_S100000x1_S100000x64_1_0_0_1
      (broadcastInDim S1000x64 ![] bcast_S_S1000x64 (constant (F := Ideal) S_ .f32 0x00000000#32))
      (broadcastInDim S100000x1 ![0] bcast_S100000_S100000x1_0 batch) h)
    (broadcastInDim S1000x64 ![0, 1] bcast_S1000x1_S1000x64_0_1
      (broadcastInDim S1000x1 ![0] bcast_S1000_S1000x1_0
        (maximumf (F := Ideal) (Host.scatterAdd (F := Ideal) scatter_S1000_S100000x1_S100000_n_0_0_1
            (broadcastInDim S1000 ![] bcast_S_S1000 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S1000 ![] bcast_S_S1000 (constant (F := Ideal) S_ .f32 0x3F800000#32)))))

end

end Cert.Gcn.K

namespace Cert.Gcn.R

section
open Cert.ReferenceIdeal Cert.ReferenceIdeal.Facts₀ Cert.ReferenceIdeal.Facts
variable [Cert.ReferenceIdeal.Facts]

/-- The flat vector of source nodes: row 0 of the edge list. -/
def srcOf (ei : (⟨S2x1600000, .i32⟩ : BufTy).Contents (Elt Ideal)) : (⟨S1600000, .i32⟩ : BufTy).Contents (Elt Ideal) :=
  shapeCast _ (extractStridedSlice S1x1600000 ![0, 0] ei slices_S2x1600000_S1x1600000_0_0) shapeCasts_S1x1600000_S1600000

/-- The flat vector of destination nodes: row 1 of the edge list. -/
def dstOf (ei : (⟨S2x1600000, .i32⟩ : BufTy).Contents (Elt Ideal)) : (⟨S1600000, .i32⟩ : BufTy).Contents (Elt Ideal) :=
  shapeCast _ (extractStridedSlice S1x1600000 ![1, 0] ei slices_S2x1600000_S1x1600000_1_0) shapeCasts_S1x1600000_S1600000

/-- A node index per edge with a negative value wrapped by the node count, as an index column. -/
def wrapCol (v : (⟨S1600000, .i32⟩ : BufTy).Contents (Elt Ideal)) : (⟨S1600000x1, .i32⟩ : BufTy).Contents (Elt Ideal) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- d^(-1/2) per node, d = 1 + the number of edges arriving at the node. -/
def dinvOf (dst : (⟨S1600000, .i32⟩ : BufTy).Contents (Elt Ideal)) : (⟨S100000, .f32⟩ : BufTy).Contents (Elt Ideal) :=
  Host.rsqrt (F := Ideal) (addf (F := Ideal) (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32)))

/-- The flat vector of edge weights d_src^(-1/2) · d_dst^(-1/2). -/
def normOf (src dst : (⟨S1600000, .i32⟩ : BufTy).Contents (Elt Ideal)) : (⟨S1600000, .f32⟩ : BufTy).Contents (Elt Ideal) :=
  mulf (F := Ideal) (φ := .f32) (Host.gather gather_S100000_S1600000x1_S1600000_n_0_n_n_0_1_1 (dinvOf dst) (wrapCol src))
    (Host.gather gather_S100000_S1600000x1_S1600000_n_0_n_n_0_1_1 (dinvOf dst) (wrapCol dst))

/-- The aggregation of one graph convolution: every edge carries its source row, scaled by the edge weight column
    `nrm`, into its destination row; each node adds its own row scaled by the self-loop column `slf`. -/
def convWith (src dst : (⟨S1600000, .i32⟩ : BufTy).Contents (Elt Ideal))
    (nrm : (⟨S1600000x1, .f32⟩ : BufTy).Contents (Elt Ideal)) (slf : (⟨S100000x1, .f32⟩ : BufTy).Contents (Elt Ideal))
    (h : (⟨S100000x64, .f32⟩ : BufTy).Contents (Elt Ideal)) : (⟨S100000x64, .f32⟩ : BufTy).Contents (Elt Ideal) :=
  addf (F := Ideal) (Host.scatterAdd (F := Ideal) scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 dst)
      (mulf (F := Ideal) (Host.gather gather_S100000x64_S1600000x1_S1600000x64_1_0_n_n_0_1_164 h (wrapCol src))
        (broadcastInDim S1600000x64 ![0, 1] bcast_S1600000x1_S1600000x64_0_1 nrm)))
    (mulf (F := Ideal) h (broadcastInDim S100000x64 ![0, 1] bcast_S100000x1_S100000x64_0_1 slf))

/-- The edge weights as a column. -/
def normCol (ei : (⟨S2x1600000, .i32⟩ : BufTy).Contents (Elt Ideal)) : (⟨S1600000x1, .f32⟩ : BufTy).Contents (Elt Ideal) :=
  broadcastInDim S1600000x1 ![0] bcast_S1600000_S1600000x1_0 (normOf (srcOf ei) (dstOf ei))

/-- The self-loop coefficients d^(-1) as a column. -/
def selfCol (ei : (⟨S2x1600000, .i32⟩ : BufTy).Contents (Elt Ideal)) : (⟨S100000x1, .f32⟩ : BufTy).Contents (Elt Ideal) :=
  broadcastInDim S100000x1 ![0] bcast_S100000_S100000x1_0 (mulf (F := Ideal) (φ := .f32) (dinvOf (dstOf ei)) (dinvOf (dstOf ei)))

/-- One graph convolution's aggregation of the rows `h` over the edge list `ei`. -/
def conv (ei : (⟨S2x1600000, .i32⟩ : BufTy).Contents (Elt Ideal)) (h : (⟨S100000x64, .f32⟩ : BufTy).Contents (Elt Ideal)) :
    (⟨S100000x64, .f32⟩ : BufTy).Contents (Elt Ideal) :=
  convWith (srcOf ei) (dstOf ei) (normCol ei) (selfCol ei) h

/-- The mean of the node rows of each graph: the rows summed by graph id, over the graph's node count (at least 1). -/
def poolOf (batch : (⟨S100000, .i32⟩ : BufTy).Contents (Elt Ideal)) (h : (⟨S100000x64, .f32⟩ : BufTy).Contents (Elt Ideal)) :
    (⟨S1000x64, .f32⟩ : BufTy).Contents (Elt Ideal) :=
  Host.divf (F := Ideal) (Host.scatterAdd (F := Ideal) scatter_S1000x64_S100000x1_S100000x64_1_0_0_1
      (broadcastInDim S1000x64 ![] bcast_S_S1000x64 (constant (F := Ideal) S_ .f32 0x00000000#32))
      (broadcastInDim S100000x1 ![0] bcast_S100000_S100000x1_0 batch) h)
    (broadcastInDim S1000x64 ![0, 1] bcast_S1000x1_S1000x64_0_1
      (broadcastInDim S1000x1 ![0] bcast_S1000_S1000x1_0
        (maximumf (F := Ideal) (Host.scatterAdd (F := Ideal) scatter_S1000_S100000x1_S100000_n_0_0_1
            (broadcastInDim S1000 ![] bcast_S_S1000 (constant (F := Ideal) S_ .f32 0x00000000#32))
            (broadcastInDim S100000x1 ![0] bcast_S100000_S100000x1_0 batch)
            (broadcastInDim S100000 ![] bcast_S_S100000 (constant (F := Ideal) S_ .f32 0x3F800000#32)))
          (broadcastInDim S1000 ![] bcast_S_S1000 (constant (F := Ideal) S_ .f32 0x3F800000#32)))))

end

end Cert.Gcn.R

namespace Cert.Gcn

variable [Cert.KernelIdeal.Facts] [Cert.ReferenceIdeal.Facts]

/-! The two vocabularies name the same shapes and the same dimension records, so each stage is one function. -/

theorem srcOf_eq (ei : (⟨Cert.KernelIdeal.S2x1600000, .i32⟩ : BufTy).Contents (Elt Ideal)) : K.srcOf ei = R.srcOf ei := rfl
theorem dstOf_eq (ei : (⟨Cert.KernelIdeal.S2x1600000, .i32⟩ : BufTy).Contents (Elt Ideal)) : K.dstOf ei = R.dstOf ei := rfl
theorem wrapCol_eq (v : (⟨Cert.KernelIdeal.S1600000, .i32⟩ : BufTy).Contents (Elt Ideal)) : K.wrapCol v = R.wrapCol v := rfl
theorem dinvOf_eq (v : (⟨Cert.KernelIdeal.S1600000, .i32⟩ : BufTy).Contents (Elt Ideal)) : K.dinvOf v = R.dinvOf v := rfl
theorem normOf_eq (s d : (⟨Cert.KernelIdeal.S1600000, .i32⟩ : BufTy).Contents (Elt Ideal)) : K.normOf s d = R.normOf s d := rfl
theorem convWith_eq (s d : (⟨Cert.KernelIdeal.S1600000, .i32⟩ : BufTy).Contents (Elt Ideal)) (nrm : (⟨Cert.KernelIdeal.S1600000x1, .f32⟩ : BufTy).Contents (Elt Ideal)) (slf : (⟨Cert.KernelIdeal.S100000x1, .f32⟩ : BufTy).Contents (Elt Ideal)) (h : (⟨Cert.KernelIdeal.S100000x64, .f32⟩ : BufTy).Contents (Elt Ideal)) :
    K.convWith s d nrm slf h = R.convWith s d nrm slf h := rfl
theorem normCol_eq (ei : (⟨Cert.KernelIdeal.S2x1600000, .i32⟩ : BufTy).Contents (Elt Ideal)) : K.normCol ei = R.normCol ei := rfl
theorem selfCol_eq (ei : (⟨Cert.KernelIdeal.S2x1600000, .i32⟩ : BufTy).Contents (Elt Ideal)) : K.selfCol ei = R.selfCol ei := rfl
theorem conv_eq (ei : (⟨Cert.KernelIdeal.S2x1600000, .i32⟩ : BufTy).Contents (Elt Ideal)) (h : (⟨Cert.KernelIdeal.S100000x64, .f32⟩ : BufTy).Contents (Elt Ideal)) : K.conv ei h = R.conv ei h := rfl
theorem poolOf_eq (b : (⟨Cert.KernelIdeal.S100000, .i32⟩ : BufTy).Contents (Elt Ideal)) (h : (⟨Cert.KernelIdeal.S100000x64, .f32⟩ : BufTy).Contents (Elt Ideal)) : K.poolOf b h = R.poolOf b h := rfl

end Cert.Gcn

end
-- ==== Proof.LibHostDot.lean ====
/-
  The host's matrix product (`dot_general`) with ONE contracted axis, read at an output index at the exact
  (extended-real) instance: the sum over that axis's coordinate k of the left operand at L k times the right operand
  at R k, for any functions L, R that give the two operand indices at each contraction position with coordinate k.
  The companion of the same fact for a kernel's product into a zero accumulator.
-/
import Idealize.ShloMosaic.PureOps.Ideal
import Idealize.ShloMosaic.PureOps.Ideal.Laws
import Idealize.ShloMosaic.Lib.ValueIdx

noncomputable section

namespace Cert.LibHostDot

open Idealize.ShloMosaic Idealize.ShloMosaic.ValueIdx

/-- Σ over the contraction index re-indexed by its one coordinate. -/
theorem dotGeneral_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    Host.dotGeneral D prec lhs rhs j = ∑ k : Fin n, lhs (L k) * rhs (R k) := by
  show FloatOps.dotGeneral D prec _ lhs rhs j = _
  rw [Ideal.dotGeneral_apply, ← Equiv.sum_comp (contrEquiv1 D n hr hs).symm]
  refine Finset.sum_congr rfl fun k _ => ?_
  have hk := contrEquiv1_symm_val D n hr hs k
  rw [hl _ k hk, hrr _ k hk]

end Cert.LibHostDot

end
-- ==== Proof.Spec.lean ====
/-
  The dense stages of the network as the reference spells them on the host — relu(pre + b) · W;  the same followed by
  "+ bv, times Wout, + bout";  pooled · W + b;  and the first layer's x · W1 with a contracted axis of extent one —
  each read at an index over the extended reals as (nested) sums over the contracted axis.
-/
import proofs.«145059_j90417651515758_1_alg».proof.Proof.Gen.ReferenceIdeal.Read
import proofs.«145059_j90417651515758_1_alg».proof.Proof.LibHostDot
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Spec

open Idealize.ShloMosaic Idealize.ShloMosaic.ValueIdx Cert.ReferenceIdeal Cert.ReferenceIdeal.Facts₀ Cert.ReferenceIdeal.Facts

/-! ## The stages -/

/-- relu(pre + b) · W over all nodes; `b` one row. -/
def lin0 (pre : (⟨S100000x64, .f32⟩ : BufTy).Contents (Elt Ideal)) (b : (⟨S1x64, .f32⟩ : BufTy).Contents (Elt Ideal)) (w : (⟨S64x64, .f32⟩ : BufTy).Contents (Elt Ideal)) : (⟨S100000x64, .f32⟩ : BufTy).Contents (Elt Ideal) :=
  Host.dotGeneral (F := Ideal) (φ₁ := .f32) (φ₂ := .f32) dot_S100000x64_S64x64_S100000x64_1_0_0_1_n_n none
    (maximumf (F := Ideal) (addf (F := Ideal) pre (broadcastInDim S100000x64 ![0, 1] bcast_S1x64_S100000x64_0_1 b))
      (broadcastInDim S100000x64 ![] bcast_S_S100000x64 (constant (F := Ideal) S_ .f32 0x00000000#32))) w

/-- (relu(pre + b2) · Wv + bv) · Wout + bout over all nodes. -/
def lin1 (pre : (⟨S100000x64, .f32⟩ : BufTy).Contents (Elt Ideal)) (b2 : (⟨S1x64, .f32⟩ : BufTy).Contents (Elt Ideal)) (wv : (⟨S64x64, .f32⟩ : BufTy).Contents (Elt Ideal)) (bv : (⟨S1x64, .f32⟩ : BufTy).Contents (Elt Ideal))
    (wo : (⟨S64x64, .f32⟩ : BufTy).Contents (Elt Ideal)) (bo : (⟨S1x64, .f32⟩ : BufTy).Contents (Elt Ideal)) : (⟨S100000x64, .f32⟩ : BufTy).Contents (Elt Ideal) :=
  addf (F := Ideal) (Host.dotGeneral (F := Ideal) (φ₁ := .f32) (φ₂ := .f32) dot_S100000x64_S64x64_S100000x64_1_0_0_1_n_n none
      (addf (F := Ideal) (Host.dotGeneral (F := Ideal) (φ₁ := .f32) (φ₂ := .f32) dot_S100000x64_S64x64_S100000x64_1_0_0_1_n_n none
          (maximumf (F := Ideal) (addf (F := Ideal) pre (broadcastInDim S100000x64 ![0, 1] bcast_S1x64_S100000x64_0_1 b2))
            (broadcastInDim S100000x64 ![] bcast_S_S100000x64 (constant (F := Ideal) S_ .f32 0x00000000#32))) wv)
        (broadcastInDim S100000x64 ![0, 1] bcast_S1x64_S100000x64_0_1 bv)) wo)
    (broadcastInDim S100000x64 ![0, 1] bcast_S1x64_S100000x64_0_1 bo)

/-- pooled · W + b over all graphs. -/
def lin2 (p : (⟨S1000x64, .f32⟩ : BufTy).Contents (Elt Ideal)) (w : (⟨S64x10, .f32⟩ : BufTy).Contents (Elt Ideal)) (b : (⟨S1x10, .f32⟩ : BufTy).Contents (Elt Ideal)) : (⟨S1000x10, .f32⟩ : BufTy).Contents (Elt Ideal) :=
  addf (F := Ideal) (Host.dotGeneral (F := Ideal) (φ₁ := .f32) (φ₂ := .f32) dot_S1000x64_S64x10_S1000x10_1_0_0_1_n_n none p w)
    (broadcastInDim S1000x10 ![0, 1] bcast_S1x10_S1000x10_0_1 b)

/-! ## The host products at an index -/

/-- A [100000,64] array times a [64,64] matrix on the host, at (n, f): the sum over k of a[n,k] · w[k,f]. -/
theorem hdB_at {φ₁ φ₂ : FTy} (a : FVec Ideal S100000x64 φ₁) (w : FVec Ideal S64x64 φ₂) (n : Fin 100000) (f : Fin 64) :
    Host.dotGeneral dot_S100000x64_S64x64_S100000x64_1_0_0_1_n_n none a w (ix2 n f) = ∑ k : Fin 64, a (ix2 n k) * w (ix2 k f) :=
  Cert.LibHostDot.dotGeneral_sum1 dot_S100000x64_S64x64_S100000x64_1_0_0_1_n_n none 64 rfl rfl a w (ix2 n f) (fun k => ix2 n k) (fun k => ix2 k f)
    (fun q k hq => funext fun ax => Fin.ext (by
      match ax with
      | ⟨0, _⟩ => exact Cert.ReferenceIdeal.Read.lhs_main_v49_0 _ _
      | ⟨1, _⟩ => exact (Cert.ReferenceIdeal.Read.lhs_main_v49_1 _ _).trans hq))
    (fun q k hq => funext fun ax => Fin.ext (by
      match ax with
      | ⟨0, _⟩ => exact (Cert.ReferenceIdeal.Read.rhs_main_v49_0 _ _).trans hq
      | ⟨1, _⟩ => exact Cert.ReferenceIdeal.Read.rhs_main_v49_1 _ _))

/-- A [1000,64] array times a [64,10] matrix on the host, at (n, f): the sum over k of a[n,k] · w[k,f]. -/
theorem hdC_at {φ₁ φ₂ : FTy} (a : FVec Ideal S1000x64 φ₁) (w : FVec Ideal S64x10 φ₂) (n : Fin 1000) (f : Fin 10) :
    Host.dotGeneral dot_S1000x64_S64x10_S1000x10_1_0_0_1_n_n none a w (ix2 n f) = ∑ k : Fin 64, a (ix2 n k) * w (ix2 k f) :=
  Cert.LibHostDot.dotGeneral_sum1 dot_S1000x64_S64x10_S1000x10_1_0_0_1_n_n none 64 rfl rfl a w (ix2 n f) (fun k => ix2 n k) (fun k => ix2 k f)
    (fun q k hq => funext fun ax => Fin.ext (by
      match ax with
      | ⟨0, _⟩ => exact Cert.ReferenceIdeal.Read.lhs_main_v119_0 _ _
      | ⟨1, _⟩ => exact (Cert.ReferenceIdeal.Read.lhs_main_v119_1 _ _).trans hq))
    (fun q k hq => funext fun ax => Fin.ext (by
      match ax with
      | ⟨0, _⟩ => exact (Cert.ReferenceIdeal.Read.rhs_main_v119_0 _ _).trans hq
      | ⟨1, _⟩ => exact Cert.ReferenceIdeal.Read.rhs_main_v119_1 _ _))

/-- A [100000,1] array times a [1,64] matrix on the host, at (n, f): the sum over k of a[n,k] · w[k,f]. -/
theorem hdA_at {φ₁ φ₂ : FTy} (a : FVec Ideal S100000x1 φ₁) (w : FVec Ideal S1x64 φ₂) (n : Fin 100000) (f : Fin 64) :
    Host.dotGeneral dot_S100000x1_S1x64_S100000x64_1_0_0_1_n_n none a w (ix2 n f) = ∑ k : Fin 1, a (ix2 n k) * w (ix2 k f) :=
  Cert.LibHostDot.dotGeneral_sum1 dot_S100000x1_S1x64_S100000x64_1_0_0_1_n_n none 1 rfl rfl a w (ix2 n f) (fun k => ix2 n k) (fun k => ix2 k f)
    (fun q k hq => funext fun ax => Fin.ext (by
      match ax with
      | ⟨0, _⟩ => exact Cert.ReferenceIdeal.Read.lhs_main_v4_0 _ _
      | ⟨1, _⟩ => exact (Cert.ReferenceIdeal.Read.lhs_main_v4_1 _ _).trans hq))
    (fun q k hq => funext fun ax => Fin.ext (by
      match ax with
      | ⟨0, _⟩ => exact (Cert.ReferenceIdeal.Read.rhs_main_v4_0 _ _).trans hq
      | ⟨1, _⟩ => exact Cert.ReferenceIdeal.Read.rhs_main_v4_1 _ _))

/-! ## Broadcasts at an index -/

/-- One row [1,64] broadcast over all nodes, at (n, f). -/
theorem rowN_at {α : Type} (b : S1x64.Idx → α) (n : Fin 100000) (f : Fin 64) :
    broadcastInDim S100000x64 ![0, 1] bcast_S1x64_S100000x64_0_1 b (ix2 n f) = b (ix2 (0 : Fin 1) f) :=
  broadcastInDim_apply _ bcast_S1x64_S100000x64_0_1 b (ix2 n f) (ix2 (0 : Fin 1) f) (fun ax => match ax with
    | ⟨0, _⟩ => rfl
    | ⟨1, _⟩ => rfl)

/-- One row [1,10] broadcast over all graphs, at (g, o). -/
theorem rowG_at {α : Type} (b : S1x10.Idx → α) (g : Fin 1000) (o : Fin 10) :
    broadcastInDim S1000x10 ![0, 1] bcast_S1x10_S1000x10_0_1 b (ix2 g o) = b (ix2 (0 : Fin 1) o) :=
  broadcastInDim_apply _ bcast_S1x10_S1000x10_0_1 b (ix2 g o) (ix2 (0 : Fin 1) o) (fun ax => match ax with
    | ⟨0, _⟩ => rfl
    | ⟨1, _⟩ => rfl)

/-- The zero splat over all nodes, at any index. -/
theorem zerosN_at (i : S100000x64.Idx) :
    broadcastInDim S100000x64 ![] bcast_S_S100000x64 (constant (F := Ideal) S_ .f32 0x00000000#32) i = Ideal.ofBits .f32 0x00000000#32 :=
  broadcastInDim_apply _ bcast_S_S100000x64 _ i ix0 (fun ax => ax.elim0)

/-- relu(pre + b) at (n, k). -/
theorem reluN_at (pre : (⟨S100000x64, .f32⟩ : BufTy).Contents (Elt Ideal)) (b : (⟨S1x64, .f32⟩ : BufTy).Contents (Elt Ideal)) (n : Fin 100000) (k : Fin 64) :
    maximumf (F := Ideal) (addf (F := Ideal) pre (broadcastInDim S100000x64 ![0, 1] bcast_S1x64_S100000x64_0_1 b))
      (broadcastInDim S100000x64 ![] bcast_S_S100000x64 (constant (F := Ideal) S_ .f32 0x00000000#32)) (ix2 n k)
      = max (pre (ix2 n k) + b (ix2 (0 : Fin 1) k)) (Ideal.ofBits .f32 0x00000000#32) := by
  rw [maximumf_apply, addf_apply, zerosN_at, rowN_at]

/-! ## The stages at an index -/

theorem lin0_at (pre : (⟨S100000x64, .f32⟩ : BufTy).Contents (Elt Ideal)) (b : (⟨S1x64, .f32⟩ : BufTy).Contents (Elt Ideal)) (w : (⟨S64x64, .f32⟩ : BufTy).Contents (Elt Ideal)) (n : Fin 100000) (f : Fin 64) :
    lin0 pre b w (ix2 n f)
      = ∑ k : Fin 64, max (pre (ix2 n k) + b (ix2 (0 : Fin 1) k)) (Ideal.ofBits .f32 0x00000000#32) * w (ix2 k f) := by
  unfold lin0
  refine (hdB_at _ _ n f).trans (Finset.sum_congr rfl fun k _ => ?_)
  rw [reluN_at]

theorem lin1_at (pre : (⟨S100000x64, .f32⟩ : BufTy).Contents (Elt Ideal)) (b2 : (⟨S1x64, .f32⟩ : BufTy).Contents (Elt Ideal)) (wv : (⟨S64x64, .f32⟩ : BufTy).Contents (Elt Ideal)) (bv : (⟨S1x64, .f32⟩ : BufTy).Contents (Elt Ideal))
    (wo : (⟨S64x64, .f32⟩ : BufTy).Contents (Elt Ideal)) (bo : (⟨S1x64, .f32⟩ : BufTy).Contents (Elt Ideal)) (n : Fin 100000) (f : Fin 64) :
    lin1 pre b2 wv bv wo bo (ix2 n f)
      = (∑ j : Fin 64, ((∑ k : Fin 64, max (pre (ix2 n k) + b2 (ix2 (0 : Fin 1) k)) (Ideal.ofBits .f32 0x00000000#32) * wv (ix2 k j))
            + bv (ix2 (0 : Fin 1) j)) * wo (ix2 j f)) + bo (ix2 (0 : Fin 1) f) := by
  unfold lin1
  rw [addf_apply, rowN_at]
  refine congrArg (· + bo (ix2 (0 : Fin 1) f)) ?_
  refine (hdB_at _ _ n f).trans (Finset.sum_congr rfl fun j _ => ?_)
  rw [addf_apply, rowN_at]
  refine congrArg (fun z => (z + bv (ix2 (0 : Fin 1) j)) * wo (ix2 j f)) ?_
  refine (hdB_at _ _ n j).trans (Finset.sum_congr rfl fun k _ => ?_)
  rw [reluN_at]

theorem lin2_at (p : (⟨S1000x64, .f32⟩ : BufTy).Contents (Elt Ideal)) (w : (⟨S64x10, .f32⟩ : BufTy).Contents (Elt Ideal)) (b : (⟨S1x10, .f32⟩ : BufTy).Contents (Elt Ideal)) (g : Fin 1000) (o : Fin 10) :
    lin2 p w b (ix2 g o) = (∑ k : Fin 64, p (ix2 g k) * w (ix2 k o)) + b (ix2 (0 : Fin 1) o) := by
  unfold lin2
  rw [addf_apply, rowG_at, hdC_at]

end Cert.Gcn.Spec

end
-- ==== Proof.FirstLayer.lean ====
/-
  The first layer's feature lift and the bias rows, where the two programs spell one value differently.
  With one input feature, x · W1 is every node's scalar times the weight row: the kernel program writes it as a
  product of two broadcasts, the reference as a matrix product whose contracted axis has extent one, and a sum over
  one term is that term. A bias vector [n] enters the kernel program as the reshape [n] → [1, n] and the reference
  as a broadcast along a new leading axis: the same row.
-/
import proofs.«145059_j90417651515758_1_alg».proof.KernelIdeal
import proofs.«145059_j90417651515758_1_alg».proof.Proof.Spec
import Idealize.ShloMosaic.Lib.ValueIdx
import Idealize.ShloMosaic.Lib.ValueLayout
import Idealize.ShloMosaic.Lib.Pipeline.Value

noncomputable section

namespace Cert.Gcn.First

open Idealize.ShloMosaic Idealize.ShloMosaic.ValueIdx Cert.KernelIdeal Cert.KernelIdeal.Facts₀ Cert.KernelIdeal.Facts

variable [Cert.KernelIdeal.Facts]

/-- x · W1 with one input feature, as the kernel program spells it: every node's scalar times the weight row. -/
def lift (x : (⟨S100000x1, .f32⟩ : BufTy).Contents (Elt Ideal)) (w : (⟨S1x64, .f32⟩ : BufTy).Contents (Elt Ideal)) : (⟨S100000x64, .f32⟩ : BufTy).Contents (Elt Ideal) :=
  mulf (F := Ideal) (φ := .f32) (broadcastInDim S100000x64 ![0, 1] bcast_S100000x1_S100000x64_0_1 x)
    (broadcastInDim S100000x64 ![0, 1] bcast_S1x64_S100000x64_0_1
      (broadcastInDim S1x64 ![1] bcast_S64_S1x64_1 (shapeCast _ w shapeCasts_S1x64_S64)))

/-- The broadcast product IS the matrix product over the contracted axis of extent one. -/
theorem lift_eq (x : (⟨S100000x1, .f32⟩ : BufTy).Contents (Elt Ideal)) (w : (⟨S1x64, .f32⟩ : BufTy).Contents (Elt Ideal)) :
    lift x w = Host.dotGeneral (F := Ideal) (φ₁ := .f32) (φ₂ := .f32) Cert.ReferenceIdeal.dot_S100000x1_S1x64_S100000x64_1_0_0_1_n_n none x w := by
  funext i
  obtain ⟨n, f, rfl⟩ : ∃ (n : Fin 100000) (f : Fin 64), i = ix2 n f := ⟨i 0, i 1, eq_ix2 i⟩
  rw [Spec.hdA_at, Fin.sum_univ_one]
  unfold lift
  rw [mulf_apply]
  have e1 : broadcastInDim S100000x64 ![0, 1] bcast_S100000x1_S100000x64_0_1 x (ix2 n f) = x (ix2 n (0 : Fin 1)) :=
    broadcastInDim_apply _ bcast_S100000x1_S100000x64_0_1 x (ix2 n f) (ix2 n (0 : Fin 1)) (fun ax => match ax with
      | ⟨0, _⟩ => rfl
      | ⟨1, _⟩ => rfl)
  have e2 : broadcastInDim S100000x64 ![0, 1] bcast_S1x64_S100000x64_0_1
      (broadcastInDim S1x64 ![1] bcast_S64_S1x64_1 (shapeCast _ w shapeCasts_S1x64_S64)) (ix2 n f) = w (ix2 (0 : Fin 1) f) := by
    refine (broadcastInDim_apply _ bcast_S1x64_S100000x64_0_1 _ (ix2 n f) (ix2 (0 : Fin 1) f) (fun ax => match ax with
      | ⟨0, _⟩ => rfl
      | ⟨1, _⟩ => rfl)).trans ?_
    refine (broadcastInDim_apply _ bcast_S64_S1x64_1 _ (ix2 (0 : Fin 1) f) (ix1 f) (fun ax => match ax with
      | ⟨0, _⟩ => rfl)).trans ?_
    exact shapeCast_1a_a_apply w shapeCasts_S1x64_S64 f
  rw [e1, e2]

/-- A bias [64] as a row [1, 64]: the reshape is the broadcast along a new leading axis. -/
theorem row64_eq {α : Type} (b : S64.Idx → α) (h : S64.BroadcastsInDim S1x64 (![1] : Fin 1 → Fin S1x64.rank)) :
    shapeCast S1x64 b shapeCasts_S64_S1x64 = broadcastInDim S1x64 ![1] h b := by
  funext i
  obtain ⟨u, f, rfl⟩ : ∃ (u : Fin 1) (f : Fin 64), i = ix2 u f := ⟨i 0, i 1, eq_ix2 i⟩
  rw [shapeCast_a_1a_apply b shapeCasts_S64_S1x64 u f]
  exact (broadcastInDim_apply _ h b (ix2 u f) (ix1 f) (fun ax => match ax with
    | ⟨0, _⟩ => rfl)).symm

/-- A bias [10] as a row [1, 10]: the reshape is the broadcast along a new leading axis. -/
theorem row10_eq {α : Type} (b : S10.Idx → α) (h : S10.BroadcastsInDim S1x10 (![1] : Fin 1 → Fin S1x10.rank)) :
    shapeCast S1x10 b shapeCasts_S10_S1x10 = broadcastInDim S1x10 ![1] h b := by
  funext i
  obtain ⟨u, f, rfl⟩ : ∃ (u : Fin 1) (f : Fin 10), i = ix2 u f := ⟨i 0, i 1, eq_ix2 i⟩
  rw [shapeCast_a_1a_apply b shapeCasts_S10_S1x10 u f]
  exact (broadcastInDim_apply _ h b (ix2 u f) (ix1 f) (fun ax => match ax with
    | ⟨0, _⟩ => rfl)).symm

end Cert.Gcn.First

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.Body.lean ====
/-
  What each of the three kernel bodies stores, read at an index of its block, over the extended reals.
  A rounding to bf16 is the identity there and a product into a zero accumulator is a plain sum over the contracted
  axis, so: the first body stores  Σ_k max(x[r,k] + b[k], 0) · W[k,f];  the second the same followed by
  "+ bv, times Wout, + bout";  the third  Σ_k p[g,k] · W[k,o] + b[o].
-/
import proofs.«145059_j90417651515758_1_alg».proof.Proof.Gen.KernelIdeal.Skeleton
import proofs.«145059_j90417651515758_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.Gcn.Body

open Idealize.ShloMosaic Idealize.ShloMosaic.ValueIdx Cert.KernelIdeal Cert.KernelIdeal.Gen

/-! ## The two products' operand indices, coordinate by coordinate -/

abbrev dotA := dot_S10000x64_S64x64_S10000x64_1_0_0_1_n_n
abbrev dotC := dot_S1000x64_S64x10_S1000x10_1_0_0_1_n_n

theorem dA_lhs0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dA_lhs1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem dA_rhs0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem dA_rhs1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

theorem dC_lhs0 (i : S1000x10.Idx) (q : dot_S1000x64_S64x10_S1000x10_1_0_0_1_n_n.contr.Idx) : (dot_S1000x64_S64x10_S1000x10_1_0_0_1_n_n.lhsIdx i q 0).val = (i 0).val := by
  unfold DotDims.lhsIdx
  rw [dif_neg (show ¬(0 : Fin S1000x64.rank) ∈ dot_S1000x64_S64x10_S1000x10_1_0_0_1_n_n.lhsBatch by decide), dif_pos (show (0 : Fin S1000x64.rank) ∈ dot_S1000x64_S64x10_S1000x10_1_0_0_1_n_n.lhsNonContracting by decide)]
  rfl
theorem dC_lhs1 (i : S1000x10.Idx) (q : dot_S1000x64_S64x10_S1000x10_1_0_0_1_n_n.contr.Idx) : (dot_S1000x64_S64x10_S1000x10_1_0_0_1_n_n.lhsIdx i q 1).val = (q ⟨0, by decide⟩).val :=
  dot_S1000x64_S64x10_S1000x10_1_0_0_1_n_n.lhsIdx_val_of_single rfl i q
theorem dC_rhs0 (i : S1000x10.Idx) (q : dot_S1000x64_S64x10_S1000x10_1_0_0_1_n_n.contr.Idx) : (dot_S1000x64_S64x10_S1000x10_1_0_0_1_n_n.rhsIdx i q 0).val = (q ⟨0, by decide⟩).val :=
  dot_S1000x64_S64x10_S1000x10_1_0_0_1_n_n.rhsIdx_val_of_single rfl i q
theorem dC_rhs1 (i : S1000x10.Idx) (q : dot_S1000x64_S64x10_S1000x10_1_0_0_1_n_n.contr.Idx) : (dot_S1000x64_S64x10_S1000x10_1_0_0_1_n_n.rhsIdx i q 1).val = (i 1).val := by
  unfold DotDims.rhsIdx
  rw [dif_neg (show ¬(1 : Fin S64x10.rank) ∈ dot_S1000x64_S64x10_S1000x10_1_0_0_1_n_n.rhsBatch by decide), dif_pos (show (1 : Fin S64x10.rank) ∈ dot_S1000x64_S64x10_S1000x10_1_0_0_1_n_n.rhsNonContracting by decide)]
  rfl

/-- A [10000,64] block times a [64,64] matrix into zero, at (r, f): the sum over k of a[r,k] · w[k,f]. -/
theorem mmA_at {φ₁ φ₂ : FTy} (a : FVec Ideal S10000x64 φ₁) (w : FVec Ideal S64x64 φ₂) (r : Fin 10000) (f : Fin 64) :
    FloatOps.matmul dot_S10000x64_S64x64_S10000x64_1_0_0_1_n_n none a w (constant S10000x64 .f32 0x00000000#32) (ix2 r f)
      = ∑ k : Fin 64, a (ix2 r k) * w (ix2 k f) :=
  Cert.LibMatmul.matmul_zero_sum1 dot_S10000x64_S64x64_S10000x64_1_0_0_1_n_n none 64 rfl rfl a w (ix2 r f)
    (fun k => ix2 r k) (fun k => ix2 k f)
    (fun q k hq => funext fun ax => Fin.ext (by
      match ax with
      | ⟨0, _⟩ => exact dA_lhs0 _ _
      | ⟨1, _⟩ => exact (dA_lhs1 _ _).trans hq))
    (fun q k hq => funext fun ax => Fin.ext (by
      match ax with
      | ⟨0, _⟩ => exact (dA_rhs0 _ _).trans hq
      | ⟨1, _⟩ => exact dA_rhs1 _ _))

/-- A [1000,64] array times a [64,10] matrix into zero, at (g, o): the sum over k of p[g,k] · w[k,o]. -/
theorem mmC_at {φ₁ φ₂ : FTy} (a : FVec Ideal S1000x64 φ₁) (w : FVec Ideal S64x10 φ₂) (g : Fin 1000) (o : Fin 10) :
    FloatOps.matmul dot_S1000x64_S64x10_S1000x10_1_0_0_1_n_n none a w (constant S1000x10 .f32 0x00000000#32) (ix2 g o)
      = ∑ k : Fin 64, a (ix2 g k) * w (ix2 k o) :=
  Cert.LibMatmul.matmul_zero_sum1 dot_S1000x64_S64x10_S1000x10_1_0_0_1_n_n none 64 rfl rfl a w (ix2 g o)
    (fun k => ix2 g k) (fun k => ix2 k o)
    (fun q k hq => funext fun ax => Fin.ext (by
      match ax with
      | ⟨0, _⟩ => exact dC_lhs0 _ _
      | ⟨1, _⟩ => exact (dC_lhs1 _ _).trans hq))
    (fun q k hq => funext fun ax => Fin.ext (by
      match ax with
      | ⟨0, _⟩ => exact (dC_rhs0 _ _).trans hq
      | ⟨1, _⟩ => exact dC_rhs1 _ _))

/-! ## The three payloads -/

/-- relu(x + b) at (r, k) of a block, b one row broadcast down the block. -/
theorem reluRow_at (x : FVec Ideal S10000x64 .f32) (b : FVec Ideal S1x64 .f32) (r : Fin 10000) (k : Fin 64) :
    maximumf (addf x (broadcastTo S10000x64 b broadcasts_S1x64_S10000x64))
      (broadcast S10000x64 (Scalar.ofBits (F := Ideal) .f32 0x00000000#32)) (ix2 r k)
      = max (x (ix2 r k) + b (ix2 (0 : Fin 1) k)) (Ideal.ofBits .f32 0x00000000#32) := by
  rw [maximumf_apply, addf_apply, broadcast_apply]
  rw [ValueIdx.broadcastTo_1b_ab_apply b broadcasts_S1x64_S10000x64 r k]
  rfl

/-- One row broadcast down a [10000,64] block, at (r, f). -/
theorem rowA_at (b : FVec Ideal S1x64 .f32) (r : Fin 10000) (f : Fin 64) :
    broadcastTo S10000x64 b broadcasts_S1x64_S10000x64 (ix2 r f) = b (ix2 (0 : Fin 1) f) :=
  ValueIdx.broadcastTo_1b_ab_apply b broadcasts_S1x64_S10000x64 r f

theorem pay0_at (x0 : Vec Ideal S10000x64 .f32) (x1 : Vec Ideal S1x64 .f32) (x2 : Vec Ideal S64x64 .f32) (r : Fin 10000) (f : Fin 64) :
    k0_pay1 (F := Ideal) x0 x1 x2 (ix2 r f)
      = ∑ k : Fin 64, max (x0 (ix2 r k) + x1 (ix2 (0 : Fin 1) k)) (Ideal.ofBits .f32 0x00000000#32) * x2 (ix2 k f) := by
  unfold k0_pay1
  simp only [shapeCast_self]
  refine (mmA_at _ _ r f).trans (Finset.sum_congr rfl fun k _ => ?_)
  rw [truncf_apply, truncf_apply, reluRow_at]

theorem pay1_at (x0 : Vec Ideal S10000x64 .f32) (x1 : Vec Ideal S1x64 .f32) (x2 : Vec Ideal S64x64 .f32)
    (x3 : Vec Ideal S1x64 .f32) (x4 : Vec Ideal S64x64 .f32) (x5 : Vec Ideal S1x64 .f32) (r : Fin 10000) (f : Fin 64) :
    k1_pay1 (F := Ideal) x0 x1 x2 x3 x4 x5 (ix2 r f)
      = (∑ j : Fin 64, ((∑ k : Fin 64, max (x0 (ix2 r k) + x1 (ix2 (0 : Fin 1) k)) (Ideal.ofBits .f32 0x00000000#32) * x2 (ix2 k j))
            + x3 (ix2 (0 : Fin 1) j)) * x4 (ix2 j f)) + x5 (ix2 (0 : Fin 1) f) := by
  unfold k1_pay1
  simp only [shapeCast_self]
  rw [addf_apply, rowA_at]
  refine congrArg (· + x5 (ix2 (0 : Fin 1) f)) ?_
  refine (mmA_at _ _ r f).trans (Finset.sum_congr rfl fun j _ => ?_)
  rw [truncf_apply, truncf_apply, addf_apply, rowA_at]
  refine congrArg (fun z => (z + x3 (ix2 (0 : Fin 1) j)) * x4 (ix2 j f)) ?_
  refine (mmA_at _ _ r j).trans (Finset.sum_congr rfl fun k _ => ?_)
  rw [truncf_apply, truncf_apply, reluRow_at]

theorem pay2_at (x0 : Vec Ideal S1000x64 .f32) (x1 : Vec Ideal S64x10 .f32) (x2 : Vec Ideal S1x10 .f32) (g : Fin 1000) (o : Fin 10) :
    k2_pay1 (F := Ideal) x0 x1 x2 (ix2 g o) = (∑ k : Fin 64, x0 (ix2 g k) * x1 (ix2 k o)) + x2 (ix2 (0 : Fin 1) o) := by
  unfold k2_pay1
  simp only [shapeCast_self]
  rw [addf_apply]
  rw [ValueIdx.broadcastTo_1b_ab_apply x2 broadcasts_S1x10_S1000x10 g o]
  refine congrArg (· + x2 (ix2 (0 : Fin 1) o)) ?_
  refine (mmC_at _ _ g o).trans (Finset.sum_congr rfl fun k _ => ?_)
  rw [truncf_apply, truncf_apply]

end Cert.Gcn.Body

end
-- ==== Proof.Region0.lean ====
/-
  The first pallas_call over its ten grid points. Point t stages rows 10000·t … 10000·t + 9999 of the aggregated
  features, the whole bias row and the whole weight matrix, and writes back the same rows of the result; a row of the
  result depends on that row of the input only, so what point t writes back is block t of ONE function of the whole
  arrays — relu(pre + b) · W — and the ten blocks cover the array.
-/
import proofs.«145059_j90417651515758_1_alg».proof.Proof.Gen.KernelIdeal.Frame
import proofs.«145059_j90417651515758_1_alg».proof.Proof.Body
import proofs.«145059_j90417651515758_1_alg».proof.Proof.Spec
import Idealize.ShloMosaic.Lib.Pipeline.Value
import Idealize.ShloMosaic.Lib.ValueIdx

set_option maxRecDepth 16384

noncomputable section

namespace Cert.Gcn.Region0

open Idealize.ShloMosaic Idealize.ShloMosaic.ValueIdx Idealize.ShloMosaic.TcCoe Idealize.SL.Sem
open Cert.KernelIdeal Cert.KernelIdeal.Gen
open Idealize.ShloMosaic.Pipeline (Dat Cfg Window)

theorem hz : (![0, 0] : Fin 2 → Nat) = fun _ => 0 := funext fun a => by fin_cases a <;> rfl

/-- Rows 10000·tv … of the three whole arrays, seen through blocks, give the first body's stored value at (r, f) as the
    whole-array function at (10000·tv + r, f). -/
theorem point (A0 : (⟨S100000x64, .f32⟩ : BufTy).Contents (Elt Ideal)) (A1 : (⟨S1x64, .f32⟩ : BufTy).Contents (Elt Ideal)) (A2 : (⟨S64x64, .f32⟩ : BufTy).Contents (Elt Ideal))
    (x0 : Vec Ideal S10000x64 .f32) (x1 : Vec Ideal S1x64 .f32) (x2 : Vec Ideal S64x64 .f32) (tv : ℕ) (htv : tv < 10)
    (h0 : ∀ (r : Fin 10000) (k : Fin 64), x0 (ix2 r k) = A0 (ix2 (⟨tv * 10000 + r.val, by omega⟩ : Fin 100000) k))
    (h1 : ∀ k : Fin 64, x1 (ix2 (0 : Fin 1) k) = A1 (ix2 (0 : Fin 1) k))
    (h2 : ∀ (k f : Fin 64), x2 (ix2 k f) = A2 (ix2 k f))
    (r : Fin 10000) (f : Fin 64) :
    k0_pay1 (F := Ideal) x0 x1 x2 (ix2 r f) = Spec.lin0 A0 A1 A2 (ix2 (⟨tv * 10000 + r.val, by omega⟩ : Fin 100000) f) := by
  rw [Body.pay0_at, Spec.lin0_at]
  refine Finset.sum_congr rfl fun k _ => ?_
  rw [h0, h1, h2]

/-- The printed index maps over the grid: windows 0 and 3 are at block row t, windows 1 and 2 at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of relu(pre + b) · W of the arrays as the region finds them. -/
theorem flushed (c : Dev nD) (t : Fin cfg0.N) :
    (dat0 V c).flushed 3 t = ((cfg0.win 3).blk t).view.read (Elt Ideal) (Spec.lin0 (V c main_v48) (V c main_v49) (V c main_arg5)) := by
  show (cfg0.win 3).cut (grid0.coords t) ((dat0 V c).after 3 t) = _
  rw [after0_3]
  unfold out0_3
  rw [View.canon_unit_zero hz]
  simp only [View.ld_unit_zero (S := S10000x64) hz, View.ld_unit_zero (S := S1x64) hz, View.ld_unit_zero (S := S64x64) hz]
  obtain ⟨e00, e01, e10, e11, e20, e21, e30, e31⟩ := idx_facts t
  have htv : t.val < 10 := lt_of_lt_of_eq t.isLt N_0
  funext j
  obtain ⟨r, f, rfl⟩ : ∃ (r : Fin 10000) (f : Fin 64), j = ix2 r f := ⟨j 0, j 1, eq_ix2 j⟩
  refine (point (V c main_v48) (V c main_v49) (V c main_arg5) (iblk0 V c 0 t) (iblk0 V c 1 t) (iblk0 V c 2 t) t.val htv ?_ ?_ ?_ r f).trans ?_
  · intro r k
    show V c main_v48 (((cfg0.win 0).blk t).view.emb (ix2 r k)) = _
    refine congrArg (V c main_v48) (funext fun a => Fin.ext ?_)
    match a with
    | ⟨0, _⟩ => show win0_0.index t (0 : Fin 2) * 10000 + 1 * r.val = t.val * 10000 + r.val; omega
    | ⟨1, _⟩ => show win0_0.index t (1 : Fin 2) * 64 + 1 * k.val = k.val; omega
  · intro k
    show V c main_v49 (((cfg0.win 1).blk t).view.emb (ix2 (0 : Fin 1) k)) = _
    refine congrArg (V c main_v49) (funext fun a => Fin.ext ?_)
    match a with
    | ⟨0, _⟩ => show win0_1.index t (0 : Fin 2) * 1 + 1 * 0 = 0; omega
    | ⟨1, _⟩ => show win0_1.index t (1 : Fin 2) * 64 + 1 * k.val = k.val; omega
  · intro k f
    show V c main_arg5 (((cfg0.win 2).blk t).view.emb (ix2 k f)) = _
    refine congrArg (V c main_arg5) (funext fun a => Fin.ext ?_)
    match a with
    | ⟨0, _⟩ => show win0_2.index t (0 : Fin 2) * 64 + 1 * k.val = k.val; omega
    | ⟨1, _⟩ => show win0_2.index t (1 : Fin 2) * 64 + 1 * f.val = f.val; omega
  · show Spec.lin0 (V c main_v48) (V c main_v49) (V c main_arg5) _ = Spec.lin0 (V c main_v48) (V c main_v49) (V c main_arg5) (((cfg0.win 3).blk t).view.emb (ix2 r f))
    refine congrArg (Spec.lin0 (V c main_v48) (V c main_v49) (V c main_arg5)) (funext fun a => Fin.ext ?_)
    match a with
    | ⟨0, _⟩ => show t.val * 10000 + r.val = win0_3.index t (0 : Fin 2) * 10000 + 1 * r.val; omega
    | ⟨1, _⟩ => show f.val = win0_3.index t (1 : Fin 2) * 64 + 1 * f.val; omega

/-- An index of the result is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v50).slice (win0_3.rect t)).set ↔ _
  rw [View.set_slice_whole, Rect.mem_set_unit]
  exact Iff.rfl

/-- Every row is in the block of the point numbered by the row's quotient by 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 10000, lt_of_lt_of_eq (by omega : (i 0).val / 10000 < 10) N_0.symm⟩
  obtain ⟨e00, e01, e10, e11, e20, e21, e30, e31⟩ := idx_facts t
  have ht : t.val = (i 0).val / 10000 := rfl
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE RESULT ARRAY after the region: relu(pre + b) · W of the arrays as the region finds them. -/
theorem final (c : Dev nD) :
    (dat0 V c).arrAt 3 cfg0.N = Spec.lin0 (V c main_v48) (V c main_v49) (V c main_arg5) :=
  (dat0 V c).arrAt_eq_of_cover 3 _ (fun t _ => flushed V c t) cover

end Cert.Gcn.Region0

end
-- ==== Proof.Region1.lean ====
/-
  The second pallas_call over its ten grid points. Point t stages rows 10000·t … of the second aggregation, two bias
  rows, two weight matrices and the last bias row whole, and writes back the same rows of the result; what it writes
  back is block t of ONE function of the whole arrays — (relu(pre + b2) · Wv + bv) · Wout + bout — and the ten blocks
  cover the array.
-/
import proofs.«145059_j90417651515758_1_alg».proof.Proof.Gen.KernelIdeal.Frame
import proofs.«145059_j90417651515758_1_alg».proof.Proof.Body
import proofs.«145059_j90417651515758_1_alg».proof.Proof.Spec
import Idealize.ShloMosaic.Lib.Pipeline.Value
import Idealize.ShloMosaic.Lib.ValueIdx

set_option maxRecDepth 16384

noncomputable section

namespace Cert.Gcn.Region1

open Idealize.ShloMosaic Idealize.ShloMosaic.ValueIdx Idealize.ShloMosaic.TcCoe Idealize.SL.Sem
open Cert.KernelIdeal Cert.KernelIdeal.Gen
open Idealize.ShloMosaic.Pipeline (Dat Cfg Window)

theorem hz : (![0, 0] : Fin 2 → Nat) = fun _ => 0 := funext fun a => by fin_cases a <;> rfl

/-- Rows 10000·tv … of the pre-activation and the five parameter arrays whole, seen through blocks, give the second
    body's stored value at (r, f) as the whole-array function at (10000·tv + r, f). -/
theorem point (A0 : (⟨S100000x64, .f32⟩ : BufTy).Contents (Elt Ideal)) (A1 : (⟨S1x64, .f32⟩ : BufTy).Contents (Elt Ideal)) (A2 : (⟨S64x64, .f32⟩ : BufTy).Contents (Elt Ideal)) (A3 : (⟨S1x64, .f32⟩ : BufTy).Contents (Elt Ideal)) (A4 : (⟨S64x64, .f32⟩ : BufTy).Contents (Elt Ideal)) (A5 : (⟨S1x64, .f32⟩ : BufTy).Contents (Elt Ideal))
    (x0 : Vec Ideal S10000x64 .f32) (x1 : Vec Ideal S1x64 .f32) (x2 : Vec Ideal S64x64 .f32)
    (x3 : Vec Ideal S1x64 .f32) (x4 : Vec Ideal S64x64 .f32) (x5 : Vec Ideal S1x64 .f32) (tv : ℕ) (htv : tv < 10)
    (h0 : ∀ (r : Fin 10000) (k : Fin 64), x0 (ix2 r k) = A0 (ix2 (⟨tv * 10000 + r.val, by omega⟩ : Fin 100000) k))
    (h1 : ∀ k : Fin 64, x1 (ix2 (0 : Fin 1) k) = A1 (ix2 (0 : Fin 1) k))
    (h2 : ∀ (k f : Fin 64), x2 (ix2 k f) = A2 (ix2 k f))
    (h3 : ∀ k : Fin 64, x3 (ix2 (0 : Fin 1) k) = A3 (ix2 (0 : Fin 1) k))
    (h4 : ∀ (k f : Fin 64), x4 (ix2 k f) = A4 (ix2 k f))
    (h5 : ∀ k : Fin 64, x5 (ix2 (0 : Fin 1) k) = A5 (ix2 (0 : Fin 1) k))
    (r : Fin 10000) (f : Fin 64) :
    k1_pay1 (F := Ideal) x0 x1 x2 x3 x4 x5 (ix2 r f)
      = Spec.lin1 A0 A1 A2 A3 A4 A5 (ix2 (⟨tv * 10000 + r.val, by omega⟩ : Fin 100000) f) := by
  rw [Body.pay1_at, Spec.lin1_at]
  simp only [h0, h1, h2, h3, h4, h5]

/-- The printed index maps over the grid: windows 0 and 6 are at block row t, the five parameter windows at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

set_option maxHeartbeats 1600000 in
/-- WHAT POINT t WRITES BACK is block t of (relu(pre + b2) · Wv + bv) · Wout + bout of the arrays as the region finds them. -/
theorem flushed (c : Dev nD) (t : Fin cfg1.N) :
    (dat1 V c).flushed 6 t = ((cfg1.win 6).blk t).view.read (Elt Ideal)
      (Spec.lin1 (V c main_v65) (V c main_v72) (V c main_v67) (V c main_v69) (V c main_v70) (V c main_v71)) := by
  show (cfg1.win 6).cut (grid1.coords t) ((dat1 V c).after 6 t) = _
  rw [after1_6]
  unfold out1_6
  rw [View.canon_unit_zero hz]
  simp only [View.ld_unit_zero (S := S10000x64) hz, View.ld_unit_zero (S := S1x64) hz, View.ld_unit_zero (S := S64x64) hz]
  obtain ⟨e00, e01, e10, e11, e20, e21, e30, e31, e40, e41, e50, e51, e60, e61⟩ := idx_facts t
  have htv : t.val < 10 := lt_of_lt_of_eq t.isLt N_1
  funext j
  obtain ⟨r, f, rfl⟩ : ∃ (r : Fin 10000) (f : Fin 64), j = ix2 r f := ⟨j 0, j 1, eq_ix2 j⟩
  refine (point (V c main_v65) (V c main_v72) (V c main_v67) (V c main_v69) (V c main_v70) (V c main_v71)
    (iblk1 V c 0 t) (iblk1 V c 1 t) (iblk1 V c 2 t) (iblk1 V c 3 t) (iblk1 V c 4 t) (iblk1 V c 5 t) t.val htv ?_ ?_ ?_ ?_ ?_ ?_ r f).trans ?_
  · intro r k
    show V c main_v65 (((cfg1.win 0).blk t).view.emb (ix2 r k)) = _
    refine congrArg (V c main_v65) (funext fun a => Fin.ext ?_)
    match a with
    | ⟨0, _⟩ => show win1_0.index t (0 : Fin 2) * 10000 + 1 * r.val = t.val * 10000 + r.val; omega
    | ⟨1, _⟩ => show win1_0.index t (1 : Fin 2) * 64 + 1 * k.val = k.val; omega
  · intro k
    show V c main_v72 (((cfg1.win 1).blk t).view.emb (ix2 (0 : Fin 1) k)) = _
    refine congrArg (V c main_v72) (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · intro k f
    show V c main_v67 (((cfg1.win 2).blk t).view.emb (ix2 k f)) = _
    refine congrArg (V c main_v67) (funext fun a => Fin.ext ?_)
    match a with
    | ⟨0, _⟩ => show win1_2.index t (0 : Fin 2) * 64 + 1 * k.val = k.val; omega
    | ⟨1, _⟩ => show win1_2.index t (1 : Fin 2) * 64 + 1 * f.val = f.val; omega
  · intro k
    show V c main_v69 (((cfg1.win 3).blk t).view.emb (ix2 (0 : Fin 1) k)) = _
    refine congrArg (V c main_v69) (funext fun a => Fin.ext ?_)
    match a with
    | ⟨0, _⟩ => show win1_3.index t (0 : Fin 2) * 1 + 1 * 0 = 0; omega
    | ⟨1, _⟩ => show win1_3.index t (1 : Fin 2) * 64 + 1 * k.val = k.val; omega
  · intro k f
    show V c main_v70 (((cfg1.win 4).blk t).view.emb (ix2 k f)) = _
    refine congrArg (V c main_v70) (funext fun a => Fin.ext ?_)
    match a with
    | ⟨0, _⟩ => show win1_4.index t (0 : Fin 2) * 64 + 1 * k.val = k.val; omega
    | ⟨1, _⟩ => show win1_4.index t (1 : Fin 2) * 64 + 1 * f.val = f.val; omega
  · intro k
    show V c main_v71 (((cfg1.win 5).blk t).view.emb (ix2 (0 : Fin 1) k)) = _
    refine congrArg (V c main_v71) (funext fun a => Fin.ext ?_)
    match a with
    | ⟨0, _⟩ => show win1_5.index t (0 : Fin 2) * 1 + 1 * 0 = 0; omega
    | ⟨1, _⟩ => show win1_5.index t (1 : Fin 2) * 64 + 1 * k.val = k.val; omega
  · generalize Spec.lin1 (V c main_v65) (V c main_v72) (V c main_v67) (V c main_v69) (V c main_v70) (V c main_v71) = G
    show G _ = G (((cfg1.win 6).blk t).view.emb (ix2 r f))
    refine congrArg G (funext fun a => Fin.ext ?_)
    match a with
    | ⟨0, _⟩ => show t.val * 10000 + r.val = win1_6.index t (0 : Fin 2) * 10000 + 1 * r.val; omega
    | ⟨1, _⟩ => show f.val = win1_6.index t (1 : Fin 2) * 64 + 1 * f.val; omega

/-- An index of the result is in point t's block iff each coordinate is in the block's range on its axis. -/
theorem mem_blk (t : Fin cfg1.N) (i : S100000x64.Idx) :
    i ∈ ((cfg1.win 6).blk t).view.set ↔ ∀ a : Fin 2, win1_6.index t a * S10000x64.size a ≤ (i a).val ∧ (i a).val < win1_6.index t a * S10000x64.size a + S10000x64.size a := by
  show i ∈ ((View.whole main_v73).slice (win1_6.rect t)).set ↔ _
  rw [View.set_slice_whole, Rect.mem_set_unit]
  exact Iff.rfl

/-- Every row is in the block of the point numbered by the row's quotient by 10000. -/
theorem cover (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 10000, lt_of_lt_of_eq (by omega : (i 0).val / 10000 < 10) N_1.symm⟩
  obtain ⟨e00, e01, e10, e11, e20, e21, e30, e31, e40, e41, e50, e51, e60, e61⟩ := idx_facts t
  have ht : t.val = (i 0).val / 10000 := rfl
  refine ⟨t, flush1_6 t, ?_⟩
  rw [mem_blk]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 64 ≤ (i 1).val ∧ (i 1).val < win1_6.index t (1 : Fin 2) * 64 + 64; omega

/-- THE RESULT ARRAY after the region. -/
theorem final (c : Dev nD) :
    (dat1 V c).arrAt 6 cfg1.N = Spec.lin1 (V c main_v65) (V c main_v72) (V c main_v67) (V c main_v69) (V c main_v70) (V c main_v71) :=
  (dat1 V c).arrAt_eq_of_cover 6 _ (fun t _ => flushed V c t) cover

end Cert.Gcn.Region1

end
-- ==== Proof.Region2.lean ====
/-
  The third pallas_call: one grid point, every window's block its whole array. It stores pooled · W + b.
-/
import proofs.«145059_j90417651515758_1_alg».proof.Proof.Gen.KernelIdeal.Frame
import proofs.«145059_j90417651515758_1_alg».proof.Proof.Body
import proofs.«145059_j90417651515758_1_alg».proof.Proof.Spec
import Idealize.ShloMosaic.Lib.Pipeline.Value
import Idealize.ShloMosaic.Lib.ValueIdx

set_option maxRecDepth 16384

noncomputable section

namespace Cert.Gcn.Region2

open Idealize.ShloMosaic Idealize.ShloMosaic.ValueIdx Idealize.ShloMosaic.TcCoe Idealize.SL.Sem
open Cert.KernelIdeal Cert.KernelIdeal.Gen
open Idealize.ShloMosaic.Pipeline (Dat Cfg Window)

theorem hz : (![0, 0] : Fin 2 → Nat) = fun _ => 0 := funext fun a => by fin_cases a <;> rfl

/-- The three whole arrays seen through their one block give the third body's stored value as the whole-array function. -/
theorem point (A0 : (⟨S1000x64, .f32⟩ : BufTy).Contents (Elt Ideal)) (A1 : (⟨S64x10, .f32⟩ : BufTy).Contents (Elt Ideal)) (A2 : (⟨S1x10, .f32⟩ : BufTy).Contents (Elt Ideal))
    (x0 : Vec Ideal S1000x64 .f32) (x1 : Vec Ideal S64x10 .f32) (x2 : Vec Ideal S1x10 .f32)
    (h0 : ∀ (g : Fin 1000) (k : Fin 64), x0 (ix2 g k) = A0 (ix2 g k))
    (h1 : ∀ (k : Fin 64) (o : Fin 10), x1 (ix2 k o) = A1 (ix2 k o))
    (h2 : ∀ o : Fin 10, x2 (ix2 (0 : Fin 1) o) = A2 (ix2 (0 : Fin 1) o))
    (g : Fin 1000) (o : Fin 10) :
    k2_pay1 (F := Ideal) x0 x1 x2 (ix2 g o) = Spec.lin2 A0 A1 A2 (ix2 g o) := by
  rw [Body.pay2_at, Spec.lin2_at]
  simp only [h0, h1, h2]

/-- The printed index maps at the one point: every window at block 0. -/
theorem idx_facts : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

/-- WHAT THE POINT WRITES BACK is pooled · W + b of the arrays as the region finds them. -/
theorem flushed (c : Dev nD) (t : Fin cfg2.N) :
    (dat2 V c).flushed 3 t = ((cfg2.win 3).blk t).view.read (Elt Ideal) (Spec.lin2 (V c main_v85) (V c main_v86) (V c main_v87)) := by
  show (cfg2.win 3).cut (grid2.coords t) ((dat2 V c).after 3 t) = _
  rw [after2_3]
  unfold out2_3
  rw [View.canon_unit_zero hz]
  simp only [View.ld_unit_zero (S := S1000x64) hz, View.ld_unit_zero (S := S64x10) hz, View.ld_unit_zero (S := S1x10) hz]
  obtain ⟨e00, e01, e10, e11, e20, e21, e30, e31⟩ := idx_facts t
  funext j
  obtain ⟨g, o, rfl⟩ : ∃ (g : Fin 1000) (o : Fin 10), j = ix2 g o := ⟨j 0, j 1, eq_ix2 j⟩
  refine (point (V c main_v85) (V c main_v86) (V c main_v87) (iblk2 V c 0 t) (iblk2 V c 1 t) (iblk2 V c 2 t) ?_ ?_ ?_ g o).trans ?_
  · intro g k
    show V c main_v85 (((cfg2.win 0).blk t).view.emb (ix2 g k)) = _
    refine congrArg (V c main_v85) (funext fun a => Fin.ext ?_)
    match a with
    | ⟨0, _⟩ => show win2_0.index t (0 : Fin 2) * 1000 + 1 * g.val = g.val; omega
    | ⟨1, _⟩ => show win2_0.index t (1 : Fin 2) * 64 + 1 * k.val = k.val; omega
  · intro k o
    show V c main_v86 (((cfg2.win 1).blk t).view.emb (ix2 k o)) = _
    refine congrArg (V c main_v86) (funext fun a => Fin.ext ?_)
    match a with
    | ⟨0, _⟩ => show win2_1.index t (0 : Fin 2) * 64 + 1 * k.val = k.val; omega
    | ⟨1, _⟩ => show win2_1.index t (1 : Fin 2) * 10 + 1 * o.val = o.val; omega
  · intro o
    show V c main_v87 (((cfg2.win 2).blk t).view.emb (ix2 (0 : Fin 1) o)) = _
    refine congrArg (V c main_v87) (funext fun a => Fin.ext ?_)
    match a with
    | ⟨0, _⟩ => show win2_2.index t (0 : Fin 2) * 1 + 1 * 0 = 0; omega
    | ⟨1, _⟩ => show win2_2.index t (1 : Fin 2) * 10 + 1 * o.val = o.val; omega
  · show Spec.lin2 (V c main_v85) (V c main_v86) (V c main_v87) _ = Spec.lin2 (V c main_v85) (V c main_v86) (V c main_v87) (((cfg2.win 3).blk t).view.emb (ix2 g o))
    refine congrArg (Spec.lin2 (V c main_v85) (V c main_v86) (V c main_v87)) (funext fun a => Fin.ext ?_)
    match a with
    | ⟨0, _⟩ => show g.val = win2_3.index t (0 : Fin 2) * 1000 + 1 * g.val; omega
    | ⟨1, _⟩ => show o.val = win2_3.index t (1 : Fin 2) * 10 + 1 * o.val; omega

/-- An index of the result is in the point's block iff each coordinate is in the block's range on its axis. -/
theorem mem_blk (t : Fin cfg2.N) (i : S1000x10.Idx) :
    i ∈ ((cfg2.win 3).blk t).view.set ↔ ∀ a : Fin 2, win2_3.index t a * S1000x10.size a ≤ (i a).val ∧ (i a).val < win2_3.index t a * S1000x10.size a + S1000x10.size a := by
  show i ∈ ((View.whole main_v88).slice (win2_3.rect t)).set ↔ _
  rw [View.set_slice_whole, Rect.mem_set_unit]
  exact Iff.rfl

/-- The one block is the whole array. -/
theorem cover (i : S1000x10.Idx) : ∃ t : Fin cfg2.N, (cfg2.win 3).flush t = true ∧ i ∈ ((cfg2.win 3).blk t).view.set := by
  have hi0 : (i 0).val < 1000 := (i 0).isLt
  have hi1 : (i 1).val < 10 := (i 1).isLt
  let t : Fin cfg2.N := ⟨0, lt_of_lt_of_eq (by omega : 0 < 1) N_2.symm⟩
  obtain ⟨e00, e01, e10, e11, e20, e21, e30, e31⟩ := idx_facts t
  refine ⟨t, flush2_3 t, ?_⟩
  rw [mem_blk]
  intro a
  match a with
  | ⟨0, _⟩ => show win2_3.index t (0 : Fin 2) * 1000 ≤ (i 0).val ∧ (i 0).val < win2_3.index t (0 : Fin 2) * 1000 + 1000; omega
  | ⟨1, _⟩ => show win2_3.index t (1 : Fin 2) * 10 ≤ (i 1).val ∧ (i 1).val < win2_3.index t (1 : Fin 2) * 10 + 10; omega

/-- THE RESULT ARRAY after the region. -/
theorem final (c : Dev nD) :
    (dat2 V c).arrAt 3 cfg2.N = Spec.lin2 (V c main_v85) (V c main_v86) (V c main_v87) :=
  (dat2 V c).arrAt_eq_of_cover 3 _ (fun t _ => flushed V c t) cover

end Cert.Gcn.Region2

end
-- ==== Proof.Fold.lean ====
/-
  The kernel program's result, read off the fold of its segments. Walking back from the last boundary: the third
  region leaves pooled · W + b of what the third host stretch computed (the mean pool of the second region's result by
  graph id, the transposed weight, the bias row); the second region leaves its two linear layers of what the second
  stretch computed (the second aggregation of the first region's result, and parameter slices, transposes and rows);
  the first region leaves relu-linear of what the first stretch computed (the first aggregation of the lifted
  features). Buffers a region or a stretch does not write are carried across unchanged. Composed, the result is one
  function of the thirteen argument arrays.
-/
import proofs.«145059_j90417651515758_1_alg».proof.Proof.Gen.KernelIdeal.Frame
import proofs.«145059_j90417651515758_1_alg».proof.Proof.Stages
import proofs.«145059_j90417651515758_1_alg».proof.Proof.FirstLayer
import proofs.«145059_j90417651515758_1_alg».proof.Proof.Region0
import proofs.«145059_j90417651515758_1_alg».proof.Proof.Region1
import proofs.«145059_j90417651515758_1_alg».proof.Proof.Region2

set_option maxRecDepth 16384

noncomputable section

namespace Cert.Gcn.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The first host stretch, from the launch memory -/

set_option maxHeartbeats 4000000 in
theorem s0_pre : W1 m ρ c (Proc.devRef .tc main_v48)
    = K.conv (m ((c : Thread nD τ).loc main_arg1)) (First.lift (m ((c : Thread nD τ).loc main_arg0)) (m ((c : Thread nD τ).loc main_arg3))) := by
  show StableHlo.after hostOps0 (W0 m ρ c) (Proc.devRef .tc main_v48) = _
  after_results_simp <;> rfl

set_option maxHeartbeats 4000000 in
theorem s0_b1 : W1 m ρ c (Proc.devRef .tc main_v49) = shapeCast S1x64 (m ((c : Thread nD τ).loc main_arg4)) shapeCasts_S64_S1x64 := by
  show StableHlo.after hostOps0 (W0 m ρ c) (Proc.devRef .tc main_v49) = _
  after_results_simp <;> rfl

set_option maxHeartbeats 4000000 in
theorem s0_src : W1 m ρ c (Proc.devRef .tc main_v1) = K.srcOf (m ((c : Thread nD τ).loc main_arg1)) := by
  show StableHlo.after hostOps0 (W0 m ρ c) (Proc.devRef .tc main_v1) = _
  after_results_simp <;> rfl

set_option maxHeartbeats 4000000 in
theorem s0_dst : W1 m ρ c (Proc.devRef .tc main_v3) = K.dstOf (m ((c : Thread nD τ).loc main_arg1)) := by
  show StableHlo.after hostOps0 (W0 m ρ c) (Proc.devRef .tc main_v3) = _
  after_results_simp <;> rfl

set_option maxHeartbeats 4000000 in
theorem s0_nrm : W1 m ρ c (Proc.devRef .tc main_v33) = K.normCol (m ((c : Thread nD τ).loc main_arg1)) := by
  show StableHlo.after hostOps0 (W0 m ρ c) (Proc.devRef .tc main_v33) = _
  after_results_simp <;> rfl

set_option maxHeartbeats 4000000 in
theorem s0_slf : W1 m ρ c (Proc.devRef .tc main_v17) = K.selfCol (m ((c : Thread nD τ).loc main_arg1)) := by
  show StableHlo.after hostOps0 (W0 m ρ c) (Proc.devRef .tc main_v17) = _
  after_results_simp <;> rfl

set_option maxHeartbeats 4000000 in
theorem s0_main_arg2 : W1 m ρ c (Proc.devRef .tc main_arg2) = (m ((c : Thread nD τ).loc main_arg2)) := by
  show StableHlo.after hostOps0 (W0 m ρ c) (Proc.devRef .tc main_arg2) = _
  after_results_simp <;> rfl

set_option maxHeartbeats 4000000 in
theorem s0_main_arg5 : W1 m ρ c (Proc.devRef .tc main_arg5) = (m ((c : Thread nD τ).loc main_arg5)) := by
  show StableHlo.after hostOps0 (W0 m ρ c) (Proc.devRef .tc main_arg5) = _
  after_results_simp <;> rfl

set_option maxHeartbeats 4000000 in
theorem s0_main_arg6 : W1 m ρ c (Proc.devRef .tc main_arg6) = (m ((c : Thread nD τ).loc main_arg6)) := by
  show StableHlo.after hostOps0 (W0 m ρ c) (Proc.devRef .tc main_arg6) = _
  after_results_simp <;> rfl

set_option maxHeartbeats 4000000 in
theorem s0_main_arg7 : W1 m ρ c (Proc.devRef .tc main_arg7) = (m ((c : Thread nD τ).loc main_arg7)) := by
  show StableHlo.after hostOps0 (W0 m ρ c) (Proc.devRef .tc main_arg7) = _
  after_results_simp <;> rfl

set_option maxHeartbeats 4000000 in
theorem s0_main_arg8 : W1 m ρ c (Proc.devRef .tc main_arg8) = (m ((c : Thread nD τ).loc main_arg8)) := by
  show StableHlo.after hostOps0 (W0 m ρ c) (Proc.devRef .tc main_arg8) = _
  after_results_simp <;> rfl

set_option maxHeartbeats 4000000 in
theorem s0_main_arg9 : W1 m ρ c (Proc.devRef .tc main_arg9) = (m ((c : Thread nD τ).loc main_arg9)) := by
  show StableHlo.after hostOps0 (W0 m ρ c) (Proc.devRef .tc main_arg9) = _
  after_results_simp <;> rfl

set_option maxHeartbeats 4000000 in
theorem s0_main_arg10 : W1 m ρ c (Proc.devRef .tc main_arg10) = (m ((c : Thread nD τ).loc main_arg10)) := by
  show StableHlo.after hostOps0 (W0 m ρ c) (Proc.devRef .tc main_arg10) = _
  after_results_simp <;> rfl

set_option maxHeartbeats 4000000 in
theorem s0_main_arg11 : W1 m ρ c (Proc.devRef .tc main_arg11) = (m ((c : Thread nD τ).loc main_arg11)) := by
  show StableHlo.after hostOps0 (W0 m ρ c) (Proc.devRef .tc main_arg11) = _
  after_results_simp <;> rfl

set_option maxHeartbeats 4000000 in
theorem s0_main_arg12 : W1 m ρ c (Proc.devRef .tc main_arg12) = (m ((c : Thread nD τ).loc main_arg12)) := by
  show StableHlo.after hostOps0 (W0 m ρ c) (Proc.devRef .tc main_arg12) = _
  after_results_simp <;> rfl

/-! ## The first region, and what it carries across -/

theorem r0 : W2 m ρ c (Proc.devRef .tc main_v50) = Spec.lin0 (W1 m ρ c (Proc.devRef .tc main_v48)) (W1 m ρ c (Proc.devRef .tc main_v49)) (W1 m ρ c (Proc.devRef .tc main_arg5)) :=
  (W2_arr m ρ c 3).trans (Region0.final (V1 m ρ) c)

theorem c0_main_v1 : W2 m ρ c (Proc.devRef .tc main_v1) = W1 m ρ c (Proc.devRef .tc main_v1) := W2_of_ne m ρ c main_v1 (by decide)
theorem c0_main_v3 : W2 m ρ c (Proc.devRef .tc main_v3) = W1 m ρ c (Proc.devRef .tc main_v3) := W2_of_ne m ρ c main_v3 (by decide)
theorem c0_main_v33 : W2 m ρ c (Proc.devRef .tc main_v33) = W1 m ρ c (Proc.devRef .tc main_v33) := W2_of_ne m ρ c main_v33 (by decide)
theorem c0_main_v17 : W2 m ρ c (Proc.devRef .tc main_v17) = W1 m ρ c (Proc.devRef .tc main_v17) := W2_of_ne m ρ c main_v17 (by decide)
theorem c0_main_arg2 : W2 m ρ c (Proc.devRef .tc main_arg2) = W1 m ρ c (Proc.devRef .tc main_arg2) := W2_of_ne m ρ c main_arg2 (by decide)
theorem c0_main_arg6 : W2 m ρ c (Proc.devRef .tc main_arg6) = W1 m ρ c (Proc.devRef .tc main_arg6) := W2_of_ne m ρ c main_arg6 (by decide)
theorem c0_main_arg7 : W2 m ρ c (Proc.devRef .tc main_arg7) = W1 m ρ c (Proc.devRef .tc main_arg7) := W2_of_ne m ρ c main_arg7 (by decide)
theorem c0_main_arg8 : W2 m ρ c (Proc.devRef .tc main_arg8) = W1 m ρ c (Proc.devRef .tc main_arg8) := W2_of_ne m ρ c main_arg8 (by decide)
theorem c0_main_arg9 : W2 m ρ c (Proc.devRef .tc main_arg9) = W1 m ρ c (Proc.devRef .tc main_arg9) := W2_of_ne m ρ c main_arg9 (by decide)
theorem c0_main_arg10 : W2 m ρ c (Proc.devRef .tc main_arg10) = W1 m ρ c (Proc.devRef .tc main_arg10) := W2_of_ne m ρ c main_arg10 (by decide)
theorem c0_main_arg11 : W2 m ρ c (Proc.devRef .tc main_arg11) = W1 m ρ c (Proc.devRef .tc main_arg11) := W2_of_ne m ρ c main_arg11 (by decide)
theorem c0_main_arg12 : W2 m ρ c (Proc.devRef .tc main_arg12) = W1 m ρ c (Proc.devRef .tc main_arg12) := W2_of_ne m ρ c main_arg12 (by decide)

/-! ## The second host stretch -/

set_option maxHeartbeats 4000000 in
theorem s1_pre : W3 m ρ c (Proc.devRef .tc main_v65)
    = K.convWith (W2 m ρ c (Proc.devRef .tc main_v1)) (W2 m ρ c (Proc.devRef .tc main_v3)) (W2 m ρ c (Proc.devRef .tc main_v33)) (W2 m ρ c (Proc.devRef .tc main_v17)) (W2 m ρ c (Proc.devRef .tc main_v50)) := by
  show StableHlo.after hostOps1 (W2 m ρ c) (Proc.devRef .tc main_v65) = _
  after_results_simp <;> rfl

theorem s1_b2 : W3 m ρ c (Proc.devRef .tc main_v72) = shapeCast S1x64 (W2 m ρ c (Proc.devRef .tc main_arg6)) shapeCasts_S64_S1x64 := by
  show StableHlo.after hostOps1 (W2 m ρ c) (Proc.devRef .tc main_v72) = _
  after_results <;> rfl

theorem s1_wv : W3 m ρ c (Proc.devRef .tc main_v67)
    = transpose S64x64 [1, 0] (extractStridedSlice S64x64 ![128, 0] (W2 m ρ c (Proc.devRef .tc main_arg7)) slices_S192x64_S64x64_128_0) transposes_S64x64_S64x64_1_0 := by
  show StableHlo.after hostOps1 (W2 m ρ c) (Proc.devRef .tc main_v67) = _
  after_results <;> rfl

theorem s1_bv : W3 m ρ c (Proc.devRef .tc main_v69)
    = shapeCast S1x64 (extractStridedSlice S64 ![128] (W2 m ρ c (Proc.devRef .tc main_arg8)) slices_S192_S64_128) shapeCasts_S64_S1x64 := by
  show StableHlo.after hostOps1 (W2 m ρ c) (Proc.devRef .tc main_v69) = _
  after_results <;> rfl

theorem s1_wo : W3 m ρ c (Proc.devRef .tc main_v70) = transpose S64x64 [1, 0] (W2 m ρ c (Proc.devRef .tc main_arg9)) transposes_S64x64_S64x64_1_0 := by
  show StableHlo.after hostOps1 (W2 m ρ c) (Proc.devRef .tc main_v70) = _
  after_results <;> rfl

theorem s1_bo : W3 m ρ c (Proc.devRef .tc main_v71) = shapeCast S1x64 (W2 m ρ c (Proc.devRef .tc main_arg10)) shapeCasts_S64_S1x64 := by
  show StableHlo.after hostOps1 (W2 m ρ c) (Proc.devRef .tc main_v71) = _
  after_results <;> rfl

theorem s1_main_arg2 : W3 m ρ c (Proc.devRef .tc main_arg2) = W2 m ρ c (Proc.devRef .tc main_arg2) := by
  show StableHlo.after hostOps1 (W2 m ρ c) (Proc.devRef .tc main_arg2) = _
  after_results <;> rfl

theorem s1_main_arg11 : W3 m ρ c (Proc.devRef .tc main_arg11) = W2 m ρ c (Proc.devRef .tc main_arg11) := by
  show StableHlo.after hostOps1 (W2 m ρ c) (Proc.devRef .tc main_arg11) = _
  after_results <;> rfl

theorem s1_main_arg12 : W3 m ρ c (Proc.devRef .tc main_arg12) = W2 m ρ c (Proc.devRef .tc main_arg12) := by
  show StableHlo.after hostOps1 (W2 m ρ c) (Proc.devRef .tc main_arg12) = _
  after_results <;> rfl

/-! ## The second region, and what it carries across -/

theorem r1 : W4 m ρ c (Proc.devRef .tc main_v73)
    = Spec.lin1 (W3 m ρ c (Proc.devRef .tc main_v65)) (W3 m ρ c (Proc.devRef .tc main_v72)) (W3 m ρ c (Proc.devRef .tc main_v67)) (W3 m ρ c (Proc.devRef .tc main_v69)) (W3 m ρ c (Proc.devRef .tc main_v70)) (W3 m ρ c (Proc.devRef .tc main_v71)) :=
  (W4_arr m ρ c 6).trans (Region1.final (V3 m ρ) c)

theorem c1_main_arg2 : W4 m ρ c (Proc.devRef .tc main_arg2) = W3 m ρ c (Proc.devRef .tc main_arg2) := W4_of_ne m ρ c main_arg2 (by decide)
theorem c1_main_arg11 : W4 m ρ c (Proc.devRef .tc main_arg11) = W3 m ρ c (Proc.devRef .tc main_arg11) := W4_of_ne m ρ c main_arg11 (by decide)
theorem c1_main_arg12 : W4 m ρ c (Proc.devRef .tc main_arg12) = W3 m ρ c (Proc.devRef .tc main_arg12) := W4_of_ne m ρ c main_arg12 (by decide)

/-! ## The third host stretch -/

set_option maxHeartbeats 4000000 in
theorem s2_pool : W5 m ρ c (Proc.devRef .tc main_v85) = K.poolOf (W4 m ρ c (Proc.devRef .tc main_arg2)) (W4 m ρ c (Proc.devRef .tc main_v73)) := by
  show StableHlo.after hostOps2 (W4 m ρ c) (Proc.devRef .tc main_v85) = _
  after_results_simp <;> rfl

theorem s2_w : W5 m ρ c (Proc.devRef .tc main_v86) = transpose S64x10 [1, 0] (W4 m ρ c (Proc.devRef .tc main_arg11)) transposes_S10x64_S64x10_1_0 := by
  show StableHlo.after hostOps2 (W4 m ρ c) (Proc.devRef .tc main_v86) = _
  after_results <;> rfl

theorem s2_b : W5 m ρ c (Proc.devRef .tc main_v87) = shapeCast S1x10 (W4 m ρ c (Proc.devRef .tc main_arg12)) shapeCasts_S10_S1x10 := by
  show StableHlo.after hostOps2 (W4 m ρ c) (Proc.devRef .tc main_v87) = _
  after_results <;> rfl

/-! ## The third region -/

theorem r2 : W6 m ρ c (Proc.devRef .tc main_v88) = Spec.lin2 (W5 m ρ c (Proc.devRef .tc main_v85)) (W5 m ρ c (Proc.devRef .tc main_v86)) (W5 m ρ c (Proc.devRef .tc main_v87)) :=
  (W6_arr m ρ c 3).trans (Region2.final (V5 m ρ) c)

/-! ## Composed -/

/-- The network as the kernel program composes it, of the thirteen argument arrays. -/
def net (x : (⟨S100000x1, .f32⟩ : BufTy).Contents (Elt Ideal)) (ei : (⟨S2x1600000, .i32⟩ : BufTy).Contents (Elt Ideal)) (batch : (⟨S100000, .i32⟩ : BufTy).Contents (Elt Ideal))
    (w1 : (⟨S1x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal)) (ipw : (⟨S192x64, .f32⟩ : BufTy).Contents (Elt Ideal)) (ipb : (⟨S192, .f32⟩ : BufTy).Contents (Elt Ideal))
    (opw : (⟨S64x64, .f32⟩ : BufTy).Contents (Elt Ideal)) (opb : (⟨S64, .f32⟩ : BufTy).Contents (Elt Ideal)) (fcw : (⟨S10x64, .f32⟩ : BufTy).Contents (Elt Ideal)) (fcb : (⟨S10, .f32⟩ : BufTy).Contents (Elt Ideal)) : (⟨S1000x10, .f32⟩ : BufTy).Contents (Elt Ideal) :=
  Spec.lin2
    (K.poolOf batch
      (Spec.lin1
        (K.conv ei (Spec.lin0 (K.conv ei (First.lift x w1)) (shapeCast S1x64 b1 shapeCasts_S64_S1x64) w2))
        (shapeCast S1x64 b2 shapeCasts_S64_S1x64)
        (transpose S64x64 [1, 0] (extractStridedSlice S64x64 ![128, 0] ipw slices_S192x64_S64x64_128_0) transposes_S64x64_S64x64_1_0)
        (shapeCast S1x64 (extractStridedSlice S64 ![128] ipb slices_S192_S64_128) shapeCasts_S64_S1x64)
        (transpose S64x64 [1, 0] opw transposes_S64x64_S64x64_1_0)
        (shapeCast S1x64 opb shapeCasts_S64_S1x64)))
    (transpose S64x10 [1, 0] fcw transposes_S10x64_S64x10_1_0)
    (shapeCast S1x10 fcb shapeCasts_S10_S1x10)

/-- The last boundary holds, at the result buffer, the network of the arguments' launch contents. -/
theorem result : W6 m ρ c (Proc.devRef .tc main_v88)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  rw [r2, s2_pool, s2_w, s2_b, r1, s1_pre, s1_b2, s1_wv, s1_bv, s1_wo, s1_bo, r0]
  rw [c1_main_arg2, c1_main_arg11, c1_main_arg12, s1_main_arg2, s1_main_arg11, s1_main_arg12]
  rw [c0_main_v1, c0_main_v3, c0_main_v33, c0_main_v17, c0_main_arg2, c0_main_arg6, c0_main_arg7, c0_main_arg8, c0_main_arg9,
    c0_main_arg10, c0_main_arg11, c0_main_arg12]
  rw [s0_pre, s0_b1, s0_src, s0_dst, s0_nrm, s0_slf, s0_main_arg2, s0_main_arg5, s0_main_arg6, s0_main_arg7, s0_main_arg8, s0_main_arg9,
    s0_main_arg10, s0_main_arg11, s0_main_arg12]
  rfl

end Cert.Gcn.Fold

end
-- ==== Proof.RefSide.lean ====
/-
  The reference's run, read: its result is the composition of the shared stages — lift, convolve, relu-linear,
  convolve, relu-linear-linear, mean pool, linear — applied to the argument arrays. The composed term the run states
  is that composition spelt out, operation by operation.
-/
import proofs.«145059_j90417651515758_1_alg».proof.Proof.Gen.ReferenceIdeal.Run
import proofs.«145059_j90417651515758_1_alg».proof.Proof.Stages
import proofs.«145059_j90417651515758_1_alg».proof.Proof.Spec

noncomputable section

namespace Cert.Gcn.Ref

open Idealize.ShloMosaic Idealize.ShloMosaic.TcCoe Idealize.SL.Sem
open Cert.ReferenceIdeal Cert.ReferenceIdeal.Facts₀ Cert.ReferenceIdeal.Facts Cert.ReferenceIdeal.Value

/-- The network as the reference composes it, of the thirteen argument arrays. -/
def net (x : (⟨S100000x1, .f32⟩ : BufTy).Contents (Elt Ideal)) (ei : (⟨S2x1600000, .i32⟩ : BufTy).Contents (Elt Ideal)) (batch : (⟨S100000, .i32⟩ : BufTy).Contents (Elt Ideal))
    (w1 : (⟨S1x64, .f32⟩ : BufTy).Contents (Elt Ideal)) (b1 : (⟨S64, .f32⟩ : BufTy).Contents (Elt Ideal)) (w2 : (⟨S64x64, .f32⟩ : BufTy).Contents (Elt Ideal)) (b2 : (⟨S64, .f32⟩ : BufTy).Contents (Elt Ideal)) (ipw : (⟨S192x64, .f32⟩ : BufTy).Contents (Elt Ideal)) (ipb : (⟨S192, .f32⟩ : BufTy).Contents (Elt Ideal))
    (opw : (⟨S64x64, .f32⟩ : BufTy).Contents (Elt Ideal)) (opb : (⟨S64, .f32⟩ : BufTy).Contents (Elt Ideal)) (fcw : (⟨S10x64, .f32⟩ : BufTy).Contents (Elt Ideal)) (fcb : (⟨S10, .f32⟩ : BufTy).Contents (Elt Ideal)) : (⟨S1000x10, .f32⟩ : BufTy).Contents (Elt Ideal) :=
  Spec.lin2
    (R.poolOf batch
      (Spec.lin1
        (R.conv ei
          (Spec.lin0
            (R.conv ei (Host.dotGeneral (F := Ideal) (φ₁ := .f32) (φ₂ := .f32) dot_S100000x1_S1x64_S100000x64_1_0_0_1_n_n none x w1))
            (broadcastInDim S1x64 ![1] bcast_S64_S1x64_1 b1) w2))
        (broadcastInDim S1x64 ![1] bcast_S64_S1x64_1 b2)
        (transpose S64x64 [1, 0] (extractStridedSlice S64x64 ![128, 0] ipw slices_S192x64_S64x64_128_0) transposes_S64x64_S64x64_1_0)
        (broadcastInDim S1x64 ![1] bcast_S64_S1x64_1 (extractStridedSlice S64 ![128] ipb slices_S192_S64_128))
        (transpose S64x64 [1, 0] opw transposes_S64x64_S64x64_1_0)
        (broadcastInDim S1x64 ![1] bcast_S64_S1x64_1 opb)))
    (transpose S64x10 [1, 0] fcw transposes_S10x64_S64x10_1_0)
    (broadcastInDim S1x10 ![1] bcast_S10_S1x10_1 fcb)

set_option maxRecDepth 16384 in
set_option maxHeartbeats 1000000 in
/-- The run's result term is the network of the arguments' launch contents. -/
theorem res_eq (m : (ℓ : Loc nD τ sig) → Buf (Elt Ideal) ℓ) (c : Dev nD) :
    res_main_v122 (F := Ideal) m c
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold res_main_v122 net Spec.lin2 Spec.lin1 Spec.lin0 R.poolOf R.conv R.convWith R.normCol R.selfCol R.normOf R.dinvOf R.wrapCol R.srcOf R.dstOf
  with_reducible rfl

end Cert.Gcn.Ref

end
-- ==== Proof.Bridge.lean ====
/-
  The two programs compose ONE network. They differ in three spellings only: the first layer's lift (a product of
  broadcasts against a matrix product over an axis of extent one), each bias row (a reshape against a broadcast along a
  new leading axis), and the vocabulary the shared stages are read in.
-/
import proofs.«145059_j90417651515758_1_alg».proof.Proof.Fold
import proofs.«145059_j90417651515758_1_alg».proof.Proof.RefSide

noncomputable section

namespace Cert.Gcn

open Idealize.ShloMosaic

set_option maxHeartbeats 1000000 in
theorem net_eq (x : (⟨Cert.KernelIdeal.S100000x1, .f32⟩ : BufTy).Contents (Elt Ideal)) (ei : (⟨Cert.KernelIdeal.S2x1600000, .i32⟩ : BufTy).Contents (Elt Ideal))
    (batch : (⟨Cert.KernelIdeal.S100000, .i32⟩ : BufTy).Contents (Elt Ideal)) (w1 : (⟨Cert.KernelIdeal.S1x64, .f32⟩ : BufTy).Contents (Elt Ideal)) (b1 : (⟨Cert.KernelIdeal.S64, .f32⟩ : BufTy).Contents (Elt Ideal))
    (w2 : (⟨Cert.KernelIdeal.S64x64, .f32⟩ : BufTy).Contents (Elt Ideal)) (b2 : (⟨Cert.KernelIdeal.S64, .f32⟩ : BufTy).Contents (Elt Ideal)) (ipw : (⟨Cert.KernelIdeal.S192x64, .f32⟩ : BufTy).Contents (Elt Ideal)) (ipb : (⟨Cert.KernelIdeal.S192, .f32⟩ : BufTy).Contents (Elt Ideal))
    (opw : (⟨Cert.KernelIdeal.S64x64, .f32⟩ : BufTy).Contents (Elt Ideal)) (opb : (⟨Cert.KernelIdeal.S64, .f32⟩ : BufTy).Contents (Elt Ideal)) (fcw : (⟨Cert.KernelIdeal.S10x64, .f32⟩ : BufTy).Contents (Elt Ideal)) (fcb : (⟨Cert.KernelIdeal.S10, .f32⟩ : BufTy).Contents (Elt Ideal)) :
    Fold.net x ei batch w1 b1 w2 b2 ipw ipb opw opb fcw fcb = Ref.net x ei batch w1 b1 w2 b2 ipw ipb opw opb fcw fcb := by
  unfold Fold.net Ref.net
  simp only [First.lift_eq, conv_eq, poolOf_eq,
    First.row64_eq _ Cert.ReferenceIdeal.Facts₀.bcast_S64_S1x64_1, First.row10_eq _ Cert.ReferenceIdeal.Facts₀.bcast_S10_S1x10_1]

end Cert.Gcn

end
-- ==== Proof.lean ====
/-
  The certificate of a two-layer graph convolution network with mean pooling and a linear head: the kernel program
  (three pallas_calls — relu-linear; relu-linear-linear; the head — among host gathers and scatter-adds) against the
  plain reference. Over the extended reals both compute ONE function of the thirteen arguments:
    lift the node scalars by W1; aggregate over the edges with weights d_src^(-1/2) d_dst^(-1/2) plus the self-loop
    term d^(-1); relu(· + b1) · W2; aggregate again; relu(· + b2) · Wv + bv, times Wout, + bout; mean by graph id;
    · fc_w^T + fc_b.
  The kernel program's value is read off its frame run region by region (each region's blocks are blocks of one
  whole-array function and cover the array) and stretch by stretch; the reference's off its run; the gathers and
  scatters, shared, are never opened. No law used needs finiteness: a sum over one term, a product into zero as a
  plain sum, and the tiling of rows.
-/
import proofs.«145059_j90417651515758_1_alg».proof.Defs
import proofs.«145059_j90417651515758_1_alg».proof.Proof.Gen.Kernel
import proofs.«145059_j90417651515758_1_alg».proof.Proof.Gen.Kernel.Skeleton
import proofs.«145059_j90417651515758_1_alg».proof.Proof.Gen.Kernel.Launch
import proofs.«145059_j90417651515758_1_alg».proof.Proof.Gen.Kernel.Points
import proofs.«145059_j90417651515758_1_alg».proof.Proof.Gen.Kernel.Frame
import proofs.«145059_j90417651515758_1_alg».proof.Proof.Gen.KernelIdeal
import proofs.«145059_j90417651515758_1_alg».proof.Proof.Gen.KernelIdeal.Skeleton
import proofs.«145059_j90417651515758_1_alg».proof.Proof.Gen.KernelIdeal.Launch
import proofs.«145059_j90417651515758_1_alg».proof.Proof.Gen.KernelIdeal.Points
import proofs.«145059_j90417651515758_1_alg».proof.Proof.Gen.KernelIdeal.Frame
import proofs.«145059_j90417651515758_1_alg».proof.Proof.Gen.ReferenceIdeal
import proofs.«145059_j90417651515758_1_alg».proof.Proof.Gen.Pre_finite_inputs
import proofs.«145059_j90417651515758_1_alg».proof.Proof.Gen.ReferenceIdeal.Run
import proofs.«145059_j90417651515758_1_alg».proof.Proof.Gen.ReferenceIdeal.Read
import proofs.«145059_j90417651515758_1_alg».proof.Proof.KernelRun
import proofs.«145059_j90417651515758_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffer. -/
theorem algebraic : Cert.algebraic_KernelIdeal_ReferenceIdeal := by
  intro m ρ m' ρ' _ hagree
  refine ⟨fun c => Cert.Gcn.Fold.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun r h c => ⟨(h c).1.trans (Cert.Gcn.Fold.result m ρ c), (h c).2⟩)
      (Cert.Gcn.Run.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.Gcn.Ref.res_eq, a0, a1, a2, a3, a4, a5, a6, a7, a8, a9, a10, a11, a12]
    exact (Cert.Gcn.net_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
